-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S1x512 : Shape := ⟨2, ![1, 512]⟩
abbrev S1024x512 : Shape := ⟨2, ![1024, 512]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S4x2048x16x64 : Shape := ⟨4, ![4, 2048, 16, 64]⟩
abbrev S1x1024 : Shape := ⟨2, ![1, 1024]⟩

abbrev nBuf : Space → Nat
  | .hbm => 26
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1x3072, .f32⟩
  | .hbm, ⟨7, _⟩ => ⟨S8192x3072, .bf16⟩
  | .hbm, ⟨8, _⟩ => ⟨S4x2048x3x16x64, .bf16⟩
  | .hbm, ⟨9, _⟩ => ⟨S3x4x16x2048x64, .bf16⟩
  | .hbm, ⟨10, _⟩ => ⟨S1x4x16x2048x64, .bf16⟩
  | .hbm, ⟨11, _⟩ => ⟨S4x16x2048x64, .bf16⟩
  | .hbm, ⟨12, _⟩ => ⟨S64x2048x64, .bf16⟩
  | .hbm, ⟨13, _⟩ => ⟨S1x4x16x2048x64, .bf16⟩
  | .hbm, ⟨14, _⟩ => ⟨S4x16x2048x64, .bf16⟩
  | .hbm, ⟨15, _⟩ => ⟨S64x2048x64, .bf16⟩
  | .hbm, ⟨16, _⟩ => ⟨S1x4x16x2048x64, .bf16⟩
  | .hbm, ⟨17, _⟩ => ⟨S4x16x2048x64, .bf16⟩
  | .hbm, ⟨18, _⟩ => ⟨S64x2048x64, .bf16⟩
  | .hbm, ⟨19, _⟩ => ⟨S64x2048x64, .bf16⟩
  | .hbm, ⟨20, _⟩ => ⟨S4x16x2048x64, .bf16⟩
  | .hbm, ⟨21, _⟩ => ⟨S4x2048x16x64, .bf16⟩
  | .hbm, ⟨22, _⟩ => ⟨S8192x1024, .bf16⟩
  | .hbm, ⟨23, _⟩ => ⟨S1x1024, .f32⟩
  | .hbm, ⟨24, _⟩ => ⟨S8192x1024, .f32⟩
  | .hbm, ⟨25, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1024x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S1x512, .f32⟩
  | .local _ .vmem, ⟨21, _⟩ => ⟨S1x512, .f32⟩
  | .local _ .vmem, ⟨22, _⟩ => ⟨S1024x512, .f32⟩
  | .local _ .vmem, ⟨23, _⟩ => ⟨S1024x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x2048x1024_S8192x1024 : S4x2048x1024.ShapeCasts S8192x1024
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S8192x3072_S4x2048x3x16x64 : S8192x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  shapeCasts_S4x16x2048x64_S64x2048x64 : S4x16x2048x64.ShapeCasts S64x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  shapeCasts_S1024_S1x1024 : S1024.ShapeCasts S1x1024
  shapeCasts_S8192x1024_S4x2048x1024 : S8192x1024.ShapeCasts S4x2048x1024
  dot_S1024x1024_S512x1024_S1024x512_1_1_0_0_n_n_wf : DotDims.WF S1024x1024 S512x1024 S1024x512 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S3072x1024.size a
  hwx0_1 : ∀ i : grid0.Coords, EltTy.bits .f32 = 32 ∨ (Rect.block (s := S3072x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x3072.size a
  hwx0_2 : ∀ i : grid0.Coords, EltTy.bits .f32 = 32 ∨ (Rect.block (s := S1x3072) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x3072.size a
  hwx0_3 : ∀ i : grid0.Coords, EltTy.bits .bf16 = 32 ∨ (Rect.block (s := S8192x3072) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x2048x64.size a
  hwx1_0 : ∀ i : grid1.Coords, EltTy.bits .bf16 = 32 ∨ (Rect.block (s := S64x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S64x2048x64.size a
  hwx1_3 : ∀ i : grid1.Coords, EltTy.bits .bf16 = 32 ∨ (Rect.block (s := S64x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S1024x1024.size a
  hwx2_1 : ∀ i : grid2.Coords, EltTy.bits .f32 = 32 ∨ (Rect.block (s := S1024x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1024.size a
  hwx2_2 : ∀ i : grid2.Coords, EltTy.bits .f32 = 32 ∨ (Rect.block (s := S1x1024) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x1024.size a
  hwx2_3 : ∀ i : grid2.Coords, EltTy.bits .f32 = 32 ∨ (Rect.block (s := S8192x1024) S1024x512.size (cc2_transform_3 i) (hinb2_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x2048x16x64, .f32⟩
  | .hbm, ⟨17, _⟩ => ⟨S4x16x2048x64, .f32⟩
  | .hbm, ⟨18, _⟩ => ⟨S4x16x2048x2048, .f32⟩
  | .hbm, ⟨19, _⟩ => ⟨S_, .f32⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S_, .f32⟩
  | .hbm, ⟨25, _⟩ => ⟨S4x16x2048, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x64, .f32⟩
  | .hbm, ⟨37, _⟩ => ⟨S4x2048x16x64, .f32⟩
  | .hbm, ⟨38, _⟩ => ⟨S4x2048x1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KRun.lean ====
/-
  The idealized kernel's run with its RESULT named. The program is seven segments — host reshapes and transposes, the
  projection region, host plumbing into heads, the attention region, host plumbing back, the output projection region, a last
  reshape — and the contents of every buffer at each boundary are a fold from the launch memory (the generated
  `Gen.W0 … Gen.W7`). Every weakly fair execution terminates without a fault in a state whose unscoped buffers
  hold the last boundary's contents; read at the result buffer this names the result, read at the arguments it
  gives them back unchanged.
-/
import proofs.«157207_j54984171323822_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the five arguments as launched. -/
theorem run : θ_run defs (onTc (τ := τ) (main (F := F))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v20 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.KRun

end
-- ==== Proof.Spec.lean ====
/-
  The mathematics of the certificate, free of any program: multi-head self-attention between two linear
  layers, on the extended reals, written over coordinate functions.

  For an input `x[bt, n, k]`, weights `w[e, k]`, `wo[e, a]` and biases `b[e]`, `bo[e]`:
  * the first linear layer gives `qkv[bt, n, e] = Σ_k x[bt, n, k] · w[e, k] + b[e]` with `e < 3 · 1024`;
  * channel `s · 1024 + h · 64 + d` of it is feature `d` of head `h` of the query (`s = 0`), the key (`s = 1`) or the
    value (`s = 2`);
  * a head's scores of query row `n` against key row `m` are `Σ_d q[n, d] · k[m, d]`, scaled by 1/8;
  * the weights of a row are `exp (score − row maximum)`, and the row's context vector is their normalised
    combination of the value rows — written in two ways, which is the whole content of the certificate:
    the sum of `weight · value` multiplied once by the reciprocal of the weights' sum (`headK`), or the sum of
    `(weight / sum) · value` (`headR`);
  * the last linear layer reads the heads' context vectors side by side: channel `a` is feature `a % 64` of
    head `a / 64`.
  The float literals stay the bit patterns both programs print (1/8, −∞, 1).
-/
import Idealize.ShloMosaic.PureOps.Ideal.Laws
import Idealize.ShloMosaic.Lib.ValueIdx

noncomputable section

namespace Cert.Attn

open Idealize.ShloMosaic

/-- The scale 1/8 = 64^(-1/2), as both programs print it. -/
abbrev cScale : EReal := Ideal.ofBits .f32 0x3E000000#32
/-- −∞, the starting value of a row maximum. -/
abbrev cNegInf : EReal := Ideal.ofBits .f32 0xFF800000#32
/-- The numerator 1 of the reciprocal of a row's sum of weights. -/
abbrev cOne : EReal := Ideal.ofBits .f32 0x3F800000#32

/-- A linear layer at one row and one output channel: `Σ_k x[r, k] · w[e, k] + b[e]`. -/
def lin {R E K : ℕ} (x : Fin R → Fin K → EReal) (w : Fin E → Fin K → EReal) (b : Fin E → EReal) (r : Fin R) (e : Fin E) : EReal :=
  (∑ k : Fin K, x r k * w e k) + b e

section Head
variable {M D : ℕ}

/-- The scaled scores of one query row `q` against every key row. -/
def score (q : Fin D → EReal) (k : Fin M → Fin D → EReal) (m : Fin M) : EReal :=
  (∑ d : Fin D, q d * k m d) * cScale

/-- The maximum of a row of scores, taken from −∞. -/
def rowMax (s : Fin M → EReal) : EReal := (Finset.univ : Finset (Fin M)).fold max cNegInf s

/-- The unnormalised softmax weight of key row `m`. -/
def wgt (s : Fin M → EReal) (m : Fin M) : EReal := Ideal.exp (s m - rowMax s)

/-- The sum of a row's weights. -/
def den (s : Fin M → EReal) : EReal := ∑ m : Fin M, wgt s m

/-- One feature of the context vector, normalised once at the end: `(Σ_m weight_m · v_m) · (1 / Σ weights)`. -/
def headK (s : Fin M → EReal) (v : Fin M → EReal) : EReal :=
  (∑ m : Fin M, wgt s m * v m) * Ideal.div cOne (den s)

/-- The same feature with every weight normalised first: `Σ_m (weight_m / Σ weights) · v_m`. -/
def headR (s : Fin M → EReal) (v : Fin M → EReal) : EReal :=
  ∑ m : Fin M, Ideal.div (wgt s m) (den s) * v m

end Head

section Model
variable (x : Fin 4 → Fin 2048 → Fin 1024 → EReal) (w : Fin 3072 → Fin 1024 → EReal) (b : Fin 3072 → EReal)
  (wo : Fin 1024 → Fin 1024 → EReal) (bo : Fin 1024 → EReal)

/-- The fused query / key / value projection. -/
def qkv (bt : Fin 4) (n : Fin 2048) (e : Fin 3072) : EReal := (∑ k : Fin 1024, x bt n k * w e k) + b e

/-- Feature `d` of head `h` at position `n` of the query (`s = 0`), key (`s = 1`) or value (`s = 2`). -/
def part (s : Fin 3) (bt : Fin 4) (h : Fin 16) (n : Fin 2048) (d : Fin 64) : EReal :=
  qkv x w b bt n ⟨s.val * 1024 + h.val * 64 + d.val, by have := s.isLt; have := h.isLt; have := d.isLt; omega⟩

/-- The scores of query row `n` of head `h` against that head's key rows. -/
def sc (bt : Fin 4) (h : Fin 16) (n : Fin 2048) : Fin 2048 → EReal :=
  score (part x w b 0 bt h n) (part x w b 1 bt h)

/-- The context vectors, normalised once at the end. -/
def ctxK (bt : Fin 4) (h : Fin 16) (n : Fin 2048) (d : Fin 64) : EReal :=
  headK (sc x w b bt h n) (fun m => part x w b 2 bt h m d)

/-- The context vectors, every weight normalised first. -/
def ctxR (bt : Fin 4) (h : Fin 16) (n : Fin 2048) (d : Fin 64) : EReal :=
  headR (sc x w b bt h n) (fun m => part x w b 2 bt h m d)

/-- The output projection of a field of context vectors `c[bt, h, n, d]`, the heads side by side. -/
def outOf (c : Fin 4 → Fin 16 → Fin 2048 → Fin 64 → EReal) (bt : Fin 4) (n : Fin 2048) (e : Fin 1024) : EReal :=
  (∑ a : Fin 1024, c bt ⟨a.val / 64, by have := a.isLt; omega⟩ n ⟨a.val % 64, Nat.mod_lt _ (by decide)⟩ * wo e a) + bo e

/-- The whole layer with the context vectors normalised once at the end. -/
def outK : Fin 4 → Fin 2048 → Fin 1024 → EReal := outOf wo bo (ctxK x w b)

/-- The whole layer with every weight normalised first. -/
def outR : Fin 4 → Fin 2048 → Fin 1024 → EReal := outOf wo bo (ctxR x w b)

end Model

end Cert.Attn

end
-- ==== Proof.LibHeads.lean ====
/-
  General lemmas, independent of any program: the layout operations that split a fused projection into attention heads
  and merge the heads back, read at explicit coordinates.

  A reshape keeps the row-major position, so
  * `[4, 2048, C] ↔ [8192, C]` pairs `(bt, n, c)` with row `bt · 2048 + n`;
  * `[8192, 3072] → [4, 2048, 3, 16, 64]` pairs `(bt, n, s, h, d)` with row `bt · 2048 + n` and channel `s · 1024 + h · 64 + d`;
  * `[4, 16, 2048, 64] ↔ [64, 2048, 64]` pairs `(bt, h, n, d)` with group `bt · 16 + h`;
  * `[4, 2048, 16, 64] → [8192, 1024]` pairs `(bt, n, h, d)` with row `bt · 2048 + n` and channel `h · 64 + d`;
  a transpose permutes the coordinates, and a unit-stride slice adds its offset.
-/
import Idealize.ShloMosaic.Lib.Pipeline.Value
import Idealize.ShloMosaic.Lib.ValueIdx

noncomputable section

namespace Cert.LibHeads

open Idealize.ShloMosaic Idealize.ShloMosaic.ValueIdx

variable {α : Type}

/-- `[4, 2048, 1024] → [8192, 1024]`: row `bt · 2048 + n` reads `(bt, n, ·)`. -/
theorem flatten_rows_apply (x : (⟨3, ![4, 2048, 1024]⟩ : Shape).Idx → α)
    (h : (⟨3, ![4, 2048, 1024]⟩ : Shape).ShapeCasts ⟨2, ![8192, 1024]⟩)
    (bt : Fin 4) (n : Fin 2048) (k : Fin 1024) (r : Fin 8192) (hr : r.val = bt.val * 2048 + n.val) :
    shapeCast ⟨2, ![8192, 1024]⟩ x h (ix2 r k) = x (ix3 bt n k) :=
  shapeCast_apply x h _ _ (by
    rw [Shape.rowMajor_val_three, Shape.rowMajor_val_two]
    show (bt.val * 2048 + n.val) * 1024 + k.val = r.val * 1024 + k.val
    rw [hr])

/-- `[8192, 1024] → [4, 2048, 1024]`: `(bt, n, ·)` reads row `bt · 2048 + n`. -/
theorem unflatten_rows_apply (x : (⟨2, ![8192, 1024]⟩ : Shape).Idx → α)
    (h : (⟨2, ![8192, 1024]⟩ : Shape).ShapeCasts ⟨3, ![4, 2048, 1024]⟩)
    (bt : Fin 4) (n : Fin 2048) (e : Fin 1024) (r : Fin 8192) (hr : r.val = bt.val * 2048 + n.val) :
    shapeCast ⟨3, ![4, 2048, 1024]⟩ x h (ix3 bt n e) = x (ix2 r e) :=
  shapeCast_apply x h _ _ (by
    rw [Shape.rowMajor_val_three, Shape.rowMajor_val_two]
    show r.val * 1024 + e.val = (bt.val * 2048 + n.val) * 1024 + e.val
    rw [hr])

/-- `[8192, 3072] → [4, 2048, 3, 16, 64]`: `(bt, n, s, h, d)` reads row `bt · 2048 + n`, channel `s · 1024 + h · 64 + d`. -/
theorem split_heads_apply (x : (⟨2, ![8192, 3072]⟩ : Shape).Idx → α)
    (h : (⟨2, ![8192, 3072]⟩ : Shape).ShapeCasts ⟨5, ![4, 2048, 3, 16, 64]⟩)
    (bt : Fin 4) (n : Fin 2048) (s : Fin 3) (hh : Fin 16) (d : Fin 64) (r : Fin 8192) (e : Fin 3072)
    (hr : r.val = bt.val * 2048 + n.val) (he : e.val = s.val * 1024 + hh.val * 64 + d.val) :
    shapeCast ⟨5, ![4, 2048, 3, 16, 64]⟩ x h (ix5 bt n s hh d) = x (ix2 r e) :=
  shapeCast_apply x h _ _ (by
    rw [Shape.rowMajor_val_five, Shape.rowMajor_val_two]
    show r.val * 3072 + e.val = (((bt.val * 2048 + n.val) * 3 + s.val) * 16 + hh.val) * 64 + d.val
    omega)

/-- The transpose `[4, 2048, 3, 16, 64] → [3, 4, 16, 2048, 64]` by `(2, 0, 3, 1, 4)`: `(s, bt, h, n, d)` reads `(bt, n, s, h, d)`. -/
theorem transpose_heads_apply (x : (⟨5, ![4, 2048, 3, 16, 64]⟩ : Shape).Idx → α)
    (h : (⟨5, ![4, 2048, 3, 16, 64]⟩ : Shape).Transposes [2, 0, 3, 1, 4] ⟨5, ![3, 4, 16, 2048, 64]⟩)
    (s : Fin 3) (bt : Fin 4) (hh : Fin 16) (n : Fin 2048) (d : Fin 64) :
    transpose ⟨5, ![3, 4, 16, 2048, 64]⟩ [2, 0, 3, 1, 4] x h (ix5 s bt hh n d) = x (ix5 bt n s hh d) :=
  transpose_apply _ x h _ _ (fun b => match b with
    | ⟨0, _⟩ => rfl | ⟨1, _⟩ => rfl | ⟨2, _⟩ => rfl | ⟨3, _⟩ => rfl | ⟨4, _⟩ => rfl)

/-- The slice of `[3, 4, 16, 2048, 64]` at leading coordinate `o`: `(0, bt, h, n, d)` reads `(o, bt, h, n, d)`. -/
theorem slice_part_apply (o : ℕ) (x : (⟨5, ![3, 4, 16, 2048, 64]⟩ : Shape).Idx → α)
    (h : (⟨5, ![3, 4, 16, 2048, 64]⟩ : Shape).Slices ![o, 0, 0, 0, 0] ⟨5, ![1, 4, 16, 2048, 64]⟩)
    (s : Fin 3) (hs : s.val = o) (bt : Fin 4) (hh : Fin 16) (n : Fin 2048) (d : Fin 64) :
    extractStridedSlice ⟨5, ![1, 4, 16, 2048, 64]⟩ ![o, 0, 0, 0, 0] x h (ix5 (0 : Fin 1) bt hh n d) = x (ix5 s bt hh n d) :=
  extractStridedSlice_apply _ x h _ _ (fun a => match a with
    | ⟨0, _⟩ => by show s.val = o + 0; omega
    | ⟨1, _⟩ => by show bt.val = 0 + bt.val; omega
    | ⟨2, _⟩ => by show hh.val = 0 + hh.val; omega
    | ⟨3, _⟩ => by show n.val = 0 + n.val; omega
    | ⟨4, _⟩ => by show d.val = 0 + d.val; omega)

/-- `[1, 4, 16, 2048, 64] → [4, 16, 2048, 64]`: the unit axis dropped. -/
theorem drop_unit_apply (x : (⟨5, ![1, 4, 16, 2048, 64]⟩ : Shape).Idx → α)
    (h : (⟨5, ![1, 4, 16, 2048, 64]⟩ : Shape).ShapeCasts ⟨4, ![4, 16, 2048, 64]⟩)
    (bt : Fin 4) (hh : Fin 16) (n : Fin 2048) (d : Fin 64) :
    shapeCast ⟨4, ![4, 16, 2048, 64]⟩ x h (ix4 bt hh n d) = x (ix5 (0 : Fin 1) bt hh n d) :=
  shapeCast_apply x h _ _ (by
    rw [Shape.rowMajor_val_five, Shape.rowMajor_val_four]
    show (((0 * 4 + bt.val) * 16 + hh.val) * 2048 + n.val) * 64 + d.val = ((bt.val * 16 + hh.val) * 2048 + n.val) * 64 + d.val
    omega)

/-- `[4, 16, 2048, 64] → [64, 2048, 64]`: group `bt · 16 + h` reads `(bt, h, ·, ·)`. -/
theorem merge_groups_apply (x : (⟨4, ![4, 16, 2048, 64]⟩ : Shape).Idx → α)
    (h : (⟨4, ![4, 16, 2048, 64]⟩ : Shape).ShapeCasts ⟨3, ![64, 2048, 64]⟩)
    (bt : Fin 4) (hh : Fin 16) (n : Fin 2048) (d : Fin 64) (g : Fin 64) (hg : g.val = bt.val * 16 + hh.val) :
    shapeCast ⟨3, ![64, 2048, 64]⟩ x h (ix3 g n d) = x (ix4 bt hh n d) :=
  shapeCast_apply x h _ _ (by
    rw [Shape.rowMajor_val_four, Shape.rowMajor_val_three]
    show ((bt.val * 16 + hh.val) * 2048 + n.val) * 64 + d.val = (g.val * 2048 + n.val) * 64 + d.val
    rw [hg])

/-- `[64, 2048, 64] → [4, 16, 2048, 64]`: `(bt, h, ·, ·)` reads group `bt · 16 + h`. -/
theorem split_groups_apply (x : (⟨3, ![64, 2048, 64]⟩ : Shape).Idx → α)
    (h : (⟨3, ![64, 2048, 64]⟩ : Shape).ShapeCasts ⟨4, ![4, 16, 2048, 64]⟩)
    (bt : Fin 4) (hh : Fin 16) (n : Fin 2048) (d : Fin 64) (g : Fin 64) (hg : g.val = bt.val * 16 + hh.val) :
    shapeCast ⟨4, ![4, 16, 2048, 64]⟩ x h (ix4 bt hh n d) = x (ix3 g n d) :=
  shapeCast_apply x h _ _ (by
    rw [Shape.rowMajor_val_four, Shape.rowMajor_val_three]
    show (g.val * 2048 + n.val) * 64 + d.val = ((bt.val * 16 + hh.val) * 2048 + n.val) * 64 + d.val
    rw [hg])

/-- The transpose `[4, 16, 2048, 64] → [4, 2048, 16, 64]` by `(0, 2, 1, 3)`: `(bt, n, h, d)` reads `(bt, h, n, d)`. -/
theorem transpose_merge_apply (x : (⟨4, ![4, 16, 2048, 64]⟩ : Shape).Idx → α)
    (h : (⟨4, ![4, 16, 2048, 64]⟩ : Shape).Transposes [0, 2, 1, 3] ⟨4, ![4, 2048, 16, 64]⟩)
    (bt : Fin 4) (n : Fin 2048) (hh : Fin 16) (d : Fin 64) :
    transpose ⟨4, ![4, 2048, 16, 64]⟩ [0, 2, 1, 3] x h (ix4 bt n hh d) = x (ix4 bt hh n d) :=
  transpose_apply _ x h _ _ (fun b => match b with
    | ⟨0, _⟩ => rfl | ⟨1, _⟩ => rfl | ⟨2, _⟩ => rfl | ⟨3, _⟩ => rfl)

/-- `[4, 2048, 16, 64] → [8192, 1024]`: row `bt · 2048 + n`, channel `h · 64 + d` reads `(bt, n, h, d)`. -/
theorem merge_heads_apply (x : (⟨4, ![4, 2048, 16, 64]⟩ : Shape).Idx → α)
    (h : (⟨4, ![4, 2048, 16, 64]⟩ : Shape).ShapeCasts ⟨2, ![8192, 1024]⟩)
    (bt : Fin 4) (n : Fin 2048) (hh : Fin 16) (d : Fin 64) (r : Fin 8192) (a : Fin 1024)
    (hr : r.val = bt.val * 2048 + n.val) (ha : a.val = hh.val * 64 + d.val) :
    shapeCast ⟨2, ![8192, 1024]⟩ x h (ix2 r a) = x (ix4 bt n hh d) :=
  shapeCast_apply x h _ _ (by
    rw [Shape.rowMajor_val_four, Shape.rowMajor_val_two]
    show ((bt.val * 2048 + n.val) * 16 + hh.val) * 64 + d.val = r.val * 1024 + a.val
    omega)

end Cert.LibHeads

end
-- ==== Proof.RegProj.lean ====
import proofs.«157207_j54984171323822_2_alg».proof.Proof.Gen.KernelIdeal.Frame
import proofs.«157207_j54984171323822_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegProj

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! # The two projection regions, from blocks to arrays

Each projection region computes, block by block over its grid, x · wᵀ + b: the output block at block row i and block
column j is the matmul of x's block row i with w's block row j (both contracted along their second axis) plus the bias's
block column j. Read through the windows' index maps, entry (r, e) of the output array is therefore
`Cert.Attn.lin x w b r e` = ∑ₖ x(r, k) · w(e, k) + b(0, e) of the arrays the region finds. Over the extended reals the
format changes in the body are the identity. -/

/-! ## The matmul's operand indices

Both projection bodies contract axis 1 of a [1024,1024] block against axis 1 of a [512,1024] block: at output index
(p, q) and contraction coordinate k the left operand is read at (p, k), the right at (q, k). -/

theorem lhsIdx_at (p : Fin 1024) (q : Fin 512) (k : Fin 1024) :
    dot_S1024x1024_S512x1024_S1024x512_1_1_0_0_n_n.lhsIdx (ix2 p q)
      ((contrEquiv1 dot_S1024x1024_S512x1024_S1024x512_1_1_0_0_n_n 1024 rfl rfl).symm k) = ix2 p k := by
  have hk := contrEquiv1_symm_val dot_S1024x1024_S512x1024_S1024x512_1_1_0_0_n_n 1024 rfl rfl k
  funext a
  apply Fin.ext
  match a with
  | ⟨0, _⟩ =>
    show (dot_S1024x1024_S512x1024_S1024x512_1_1_0_0_n_n.lhsIdx (ix2 p q) _ 0).val = p.val
    unfold DotDims.lhsIdx
    rw [dif_neg (show ¬(0 : Fin S1024x1024.rank) ∈ dot_S1024x1024_S512x1024_S1024x512_1_1_0_0_n_n.lhsBatch by decide),
      dif_pos (show (0 : Fin S1024x1024.rank) ∈ dot_S1024x1024_S512x1024_S1024x512_1_1_0_0_n_n.lhsNonContracting by decide)]
    rfl
  | ⟨1, _⟩ => exact (dot_S1024x1024_S512x1024_S1024x512_1_1_0_0_n_n.lhsIdx_val_of_single rfl _ _).trans hk

theorem rhsIdx_at (p : Fin 1024) (q : Fin 512) (k : Fin 1024) :
    dot_S1024x1024_S512x1024_S1024x512_1_1_0_0_n_n.rhsIdx (ix2 p q)
      ((contrEquiv1 dot_S1024x1024_S512x1024_S1024x512_1_1_0_0_n_n 1024 rfl rfl).symm k) = ix2 q k := by
  have hk := contrEquiv1_symm_val dot_S1024x1024_S512x1024_S1024x512_1_1_0_0_n_n 1024 rfl rfl k
  funext a
  apply Fin.ext
  match a with
  | ⟨0, _⟩ =>
    show (dot_S1024x1024_S512x1024_S1024x512_1_1_0_0_n_n.rhsIdx (ix2 p q) _ 0).val = q.val
    unfold DotDims.rhsIdx
    rw [dif_neg (show ¬(0 : Fin S512x1024.rank) ∈ dot_S1024x1024_S512x1024_S1024x512_1_1_0_0_n_n.rhsBatch by decide),
      dif_pos (show (0 : Fin S512x1024.rank) ∈ dot_S1024x1024_S512x1024_S1024x512_1_1_0_0_n_n.rhsNonContracting by decide)]
    rfl
  | ⟨1, _⟩ => exact (dot_S1024x1024_S512x1024_S1024x512_1_1_0_0_n_n.rhsIdx_val_of_single rfl _ _).trans hk

/-! ## The fused q/k/v projection (region 0) -/

/-- The body's payload at block coordinate (p, q): the row-by-row sum over the shared axis plus the bias's entry (the
    format changes are the identity on extended reals). -/
theorem pay0_apply (x0 : Vec Ideal S1024x1024 .f32) (x1 : Vec Ideal S512x1024 .f32) (x2 : Vec Ideal S1x512 .f32)
    (p : Fin 1024) (q : Fin 512) :
    (k0_pay1 (F := Ideal) x0 x1 x2 : S1024x512.Idx → EReal) (ix2 p q)
      = (∑ k : Fin 1024, (x0 : S1024x1024.Idx → EReal) (ix2 p k) * (x1 : S512x1024.Idx → EReal) (ix2 q k))
        + (x2 : S1x512.Idx → EReal) (ix2 (0 : Fin 1) q) := by
  unfold k0_pay1
  rw [truncf_apply, addf_apply, broadcastTo_1b_ab_apply, shapeCast_self, shapeCast_self]
  refine congrArg (· + (x2 : S1x512.Idx → EReal) (ix2 (0 : Fin 1) q)) ?_
  refine (Ideal.matmul_constant_zero_apply dot_S1024x1024_S512x1024_S1024x512_1_1_0_0_n_n none _ _ (ix2 p q)).trans ?_
  rw [← Equiv.sum_comp (contrEquiv1 dot_S1024x1024_S512x1024_S1024x512_1_1_0_0_n_n 1024 rfl rfl).symm]
  refine Finset.sum_congr rfl fun k _ => ?_
  rw [lhsIdx_at, rhsIdx_at, truncf_apply, truncf_apply]

theorem zero_offsets : (![0, 0] : Fin 2 → Nat) = fun _ => 0 := funext fun a => by fin_cases a <;> rfl

/-- The projection's output array, entry by entry, from the three arrays it reads: entry (r, e) is row r of the first
    against row e of the second, summed over the shared axis, plus entry (0, e) of the third. -/
def G0 (a0 : S8192x1024.Idx → EReal) (a1 : S3072x1024.Idx → EReal) (a2 : S1x3072.Idx → EReal) : S8192x3072.Idx → EReal :=
  fun i => Cert.Attn.lin (fun (r : Fin 8192) (k : Fin 1024) => a0 (ix2 r k)) (fun (e : Fin 3072) (k : Fin 1024) => a1 (ix2 e k))
    (fun e : Fin 3072 => a2 (ix2 (0 : Fin 1) e)) (i 0) (i 1)

/-- The index maps over the 8 × 6 grid: the row-operand's block row is the output's, the column-operand's block row and
    the bias's block column are the output's block column, the other block indices are 0, and the output's block indices
    stay in range. -/
theorem idx_facts0 : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7 ∧ win0_3.index t (1 : Fin 2) ≤ 5 :=
  (by decide +kernel : ∀ t : Fin grid0.N, _)

/-- Every output block is some grid point's. -/
theorem idx_onto0 : ∀ (q0 : Fin 8) (q1 : Fin 6), ∃ t : Fin cfg0.N, win0_3.index t = ![q0.val, q1.val] :=
  (by decide +kernel : ∀ (q0 : Fin 8) (q1 : Fin 6), ∃ t : Fin grid0.N, win0_3.index t = ![q0.val, q1.val])

/-- The row-operand's block at a point, read at (p, k), is the array at (block row × 1024 + p, k). -/
theorem blk0_0_apply (c : Dev nD) (t : Fin cfg0.N) (p k : Fin 1024) (r : Fin 8192)
    (hr : r.val = win0_3.index t (0 : Fin 2) * 1024 + p.val) :
    (iblk0 (F := Ideal) V c 0 t : S1024x1024.Idx → EReal) (ix2 p k) = (V c main_v0 : S8192x1024.Idx → EReal) (ix2 r k) := by
  obtain ⟨e00, e01, -, -, -, -, -, -⟩ := idx_facts0 t
  unfold iblk0
  rw [View.read_apply]
  show (V c main_v0 : S8192x1024.Idx → EReal) _ = (V c main_v0 : S8192x1024.Idx → EReal) _
  congr 1
  funext a
  apply Fin.ext
  match a with
  | ⟨0, _⟩ => show win0_0.index t (0 : Fin 2) * 1024 + 1 * p.val = r.val; omega
  | ⟨1, _⟩ => show win0_0.index t (1 : Fin 2) * 1024 + 1 * k.val = k.val; omega

/-- The column-operand's block at a point, read at (q, k), is the array at (block column × 512 + q, k). -/
theorem blk0_1_apply (c : Dev nD) (t : Fin cfg0.N) (q : Fin 512) (k : Fin 1024) (e : Fin 3072)
    (he : e.val = win0_3.index t (1 : Fin 2) * 512 + q.val) :
    (iblk0 (F := Ideal) V c 1 t : S512x1024.Idx → EReal) (ix2 q k) = (V c main_arg1 : S3072x1024.Idx → EReal) (ix2 e k) := by
  obtain ⟨-, -, e10, e11, -, -, -, -⟩ := idx_facts0 t
  unfold iblk0
  rw [View.read_apply]
  show (V c main_arg1 : S3072x1024.Idx → EReal) _ = (V c main_arg1 : S3072x1024.Idx → EReal) _
  congr 1
  funext a
  apply Fin.ext
  match a with
  | ⟨0, _⟩ => show win0_1.index t (0 : Fin 2) * 512 + 1 * q.val = e.val; omega
  | ⟨1, _⟩ => show win0_1.index t (1 : Fin 2) * 1024 + 1 * k.val = k.val; omega

/-- The bias's block at a point, read at (0, q), is the array at (0, block column × 512 + q). -/
theorem blk0_2_apply (c : Dev nD) (t : Fin cfg0.N) (q : Fin 512) (e : Fin 3072)
    (he : e.val = win0_3.index t (1 : Fin 2) * 512 + q.val) :
    (iblk0 (F := Ideal) V c 2 t : S1x512.Idx → EReal) (ix2 (0 : Fin 1) q) = (V c main_v1 : S1x3072.Idx → EReal) (ix2 (0 : Fin 1) e) := by
  obtain ⟨-, -, -, -, e20, e21, -, -⟩ := idx_facts0 t
  unfold iblk0
  rw [View.read_apply]
  show (V c main_v1 : S1x3072.Idx → EReal) _ = (V c main_v1 : S1x3072.Idx → EReal) _
  congr 1
  funext a
  apply Fin.ext
  match a with
  | ⟨0, _⟩ => show win0_2.index t (0 : Fin 2) * 1 + 1 * 0 = 0; omega
  | ⟨1, _⟩ => show win0_2.index t (1 : Fin 2) * 512 + 1 * q.val = e.val; omega

/-- What a grid point writes back is its block of `G0` of the three arrays as the region finds them. -/
theorem flushed0_eq (c : Dev nD) (t : Fin cfg0.N) :
    (dat0 (F := Ideal) V c).flushed 3 t
      = ((cfg0.win 3).blk t).view.read (Elt Ideal) (G0 (V c main_v0) (V c main_arg1) (V c main_v1)) := by
  show (cfg0.win 3).cut (grid0.coords t) ((dat0 (F := Ideal) V c).after 3 t) = _
  rw [after0_3]
  unfold out0_3
  rw [View.canon_unit_zero zero_offsets]
  simp only [View.ld_unit_zero (S := S1024x1024) zero_offsets, View.ld_unit_zero (S := S512x1024) zero_offsets,
    View.ld_unit_zero (S := S1x512) zero_offsets]
  obtain ⟨-, -, -, -, -, -, b0, b1⟩ := idx_facts0 t
  funext j
  obtain ⟨p, q, rfl⟩ : ∃ (p : Fin 1024) (q : Fin 512), j = ix2 p q := ⟨j 0, j 1, eq_ix2 j⟩
  have hp := p.isLt
  have hq := q.isLt
  have hemb : ((cfg0.win 3).blk t).view.emb (ix2 p q)
      = ix2 (⟨win0_3.index t (0 : Fin 2) * 1024 + p.val, by omega⟩ : Fin 8192)
          (⟨win0_3.index t (1 : Fin 2) * 512 + q.val, by omega⟩ : Fin 3072) := by
    funext a
    apply Fin.ext
    match a with
    | ⟨0, _⟩ => show win0_3.index t (0 : Fin 2) * 1024 + 1 * p.val = win0_3.index t (0 : Fin 2) * 1024 + p.val; omega
    | ⟨1, _⟩ => show win0_3.index t (1 : Fin 2) * 512 + 1 * q.val = win0_3.index t (1 : Fin 2) * 512 + q.val; omega
  show (k0_pay1 (F := Ideal) (iblk0 V c 0 t) (iblk0 V c 1 t) (iblk0 V c 2 t) : S1024x512.Idx → EReal) (ix2 p q)
    = G0 (V c main_v0) (V c main_arg1) (V c main_v1) (((cfg0.win 3).blk t).view.emb (ix2 p q))
  rw [hemb]
  refine (pay0_apply _ _ _ p q).trans ?_
  unfold G0 Cert.Attn.lin
  refine congrArg₂ (· + ·) (Finset.sum_congr rfl fun k _ => ?_) ?_
  · exact congrArg₂ (· * ·) (blk0_0_apply V c t p k _ rfl) (blk0_1_apply V c t q k _ rfl)
  · exact blk0_2_apply V c t q _ rfl

/-- An index of the output array is in a point's block iff each coordinate is in the block's range on its axis. -/
theorem mem_blk0 (t : Fin cfg0.N) (i : S8192x3072.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2).slice (win0_3.rect t)).set ↔ _
  rw [View.set_slice_whole, Rect.mem_set_unit]
  exact Iff.rfl

/-- Every entry of the output array lies in the block of the point whose block row is r / 1024 and block column e / 512. -/
theorem cover0 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := idx_onto0 ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output array after the whole grid: `G0` of the three arrays as the region finds them. -/
theorem arr0_eq (c : Dev nD) :
    (dat0 (F := Ideal) V c).arrAt 3 cfg0.N = G0 (V c main_v0) (V c main_arg1) (V c main_v1) :=
  (dat0 (F := Ideal) V c).arrAt_eq_of_cover 3 (G0 (V c main_v0) (V c main_arg1) (V c main_v1))
    (fun t _ => flushed0_eq V c t) cover0

/-- Entry (r, e) of the first projection's output array after the whole grid. -/
theorem final0 (c : Dev nD) (r : Fin 8192) (e : Fin 3072) :
    ((dat0 (F := Ideal) V c).arrAt 3 cfg0.N : S8192x3072.Idx → EReal) (ix2 r e)
      = Cert.Attn.lin (fun (r : Fin 8192) (k : Fin 1024) => (V c main_v0 : S8192x1024.Idx → EReal) (ix2 r k))
          (fun (e : Fin 3072) (k : Fin 1024) => (V c main_arg1 : S3072x1024.Idx → EReal) (ix2 e k))
          (fun e : Fin 3072 => (V c main_v1 : S1x3072.Idx → EReal) (ix2 (0 : Fin 1) e)) r e := by
  rw [arr0_eq]
  rfl

/-! ## The output projection (region 2): the same mathematics over an 8 × 2 grid -/

/-- The body's payload at block coordinate (p, q): the row-by-row sum over the shared axis plus the bias's entry. -/
theorem pay2_apply (x0 : Vec Ideal S1024x1024 .bf16) (x1 : Vec Ideal S512x1024 .f32) (x2 : Vec Ideal S1x512 .f32)
    (p : Fin 1024) (q : Fin 512) :
    (k2_pay1 (F := Ideal) x0 x1 x2 : S1024x512.Idx → EReal) (ix2 p q)
      = (∑ k : Fin 1024, (x0 : S1024x1024.Idx → EReal) (ix2 p k) * (x1 : S512x1024.Idx → EReal) (ix2 q k))
        + (x2 : S1x512.Idx → EReal) (ix2 (0 : Fin 1) q) := by
  unfold k2_pay1
  rw [addf_apply, broadcastTo_1b_ab_apply, shapeCast_self, shapeCast_self]
  refine congrArg (· + (x2 : S1x512.Idx → EReal) (ix2 (0 : Fin 1) q)) ?_
  refine (Ideal.matmul_constant_zero_apply dot_S1024x1024_S512x1024_S1024x512_1_1_0_0_n_n none _ _ (ix2 p q)).trans ?_
  rw [← Equiv.sum_comp (contrEquiv1 dot_S1024x1024_S512x1024_S1024x512_1_1_0_0_n_n 1024 rfl rfl).symm]
  refine Finset.sum_congr rfl fun k _ => ?_
  rw [lhsIdx_at, rhsIdx_at, truncf_apply]

/-- The output projection's array, entry by entry, from the three arrays it reads. -/
def G2 (a0 : S8192x1024.Idx → EReal) (a1 : S1024x1024.Idx → EReal) (a2 : S1x1024.Idx → EReal) : S8192x1024.Idx → EReal :=
  fun i => Cert.Attn.lin (fun (r : Fin 8192) (k : Fin 1024) => a0 (ix2 r k)) (fun (e : Fin 1024) (k : Fin 1024) => a1 (ix2 e k))
    (fun e : Fin 1024 => a2 (ix2 (0 : Fin 1) e)) (i 0) (i 1)

/-- The index maps over the 8 × 2 grid, as for the first projection. -/
theorem idx_facts2 : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 7 ∧ win2_3.index t (1 : Fin 2) ≤ 1 :=
  (by decide +kernel : ∀ t : Fin grid2.N, _)

/-- Every output block is some grid point's. -/
theorem idx_onto2 : ∀ (q0 : Fin 8) (q1 : Fin 2), ∃ t : Fin cfg2.N, win2_3.index t = ![q0.val, q1.val] :=
  (by decide +kernel : ∀ (q0 : Fin 8) (q1 : Fin 2), ∃ t : Fin grid2.N, win2_3.index t = ![q0.val, q1.val])

/-- The row-operand's block at a point, read at (p, k), is the array at (block row × 1024 + p, k). -/
theorem blk2_0_apply (c : Dev nD) (t : Fin cfg2.N) (p k : Fin 1024) (r : Fin 8192)
    (hr : r.val = win2_3.index t (0 : Fin 2) * 1024 + p.val) :
    (iblk2 (F := Ideal) V c 0 t : S1024x1024.Idx → EReal) (ix2 p k) = (V c main_v17 : S8192x1024.Idx → EReal) (ix2 r k) := by
  obtain ⟨e00, e01, -, -, -, -, -, -⟩ := idx_facts2 t
  unfold iblk2
  rw [View.read_apply]
  show (V c main_v17 : S8192x1024.Idx → EReal) _ = (V c main_v17 : S8192x1024.Idx → EReal) _
  congr 1
  funext a
  apply Fin.ext
  match a with
  | ⟨0, _⟩ => show win2_0.index t (0 : Fin 2) * 1024 + 1 * p.val = r.val; omega
  | ⟨1, _⟩ => show win2_0.index t (1 : Fin 2) * 1024 + 1 * k.val = k.val; omega

/-- The column-operand's block at a point, read at (q, k), is the array at (block column × 512 + q, k). -/
theorem blk2_1_apply (c : Dev nD) (t : Fin cfg2.N) (q : Fin 512) (k : Fin 1024) (e : Fin 1024)
    (he : e.val = win2_3.index t (1 : Fin 2) * 512 + q.val) :
    (iblk2 (F := Ideal) V c 1 t : S512x1024.Idx → EReal) (ix2 q k) = (V c main_arg3 : S1024x1024.Idx → EReal) (ix2 e k) := by
  obtain ⟨-, -, e10, e11, -, -, -, -⟩ := idx_facts2 t
  unfold iblk2
  rw [View.read_apply]
  show (V c main_arg3 : S1024x1024.Idx → EReal) _ = (V c main_arg3 : S1024x1024.Idx → EReal) _
  congr 1
  funext a
  apply Fin.ext
  match a with
  | ⟨0, _⟩ => show win2_1.index t (0 : Fin 2) * 512 + 1 * q.val = e.val; omega
  | ⟨1, _⟩ => show win2_1.index t (1 : Fin 2) * 1024 + 1 * k.val = k.val; omega

/-- The bias's block at a point, read at (0, q), is the array at (0, block column × 512 + q). -/
theorem blk2_2_apply (c : Dev nD) (t : Fin cfg2.N) (q : Fin 512) (e : Fin 1024)
    (he : e.val = win2_3.index t (1 : Fin 2) * 512 + q.val) :
    (iblk2 (F := Ideal) V c 2 t : S1x512.Idx → EReal) (ix2 (0 : Fin 1) q) = (V c main_v18 : S1x1024.Idx → EReal) (ix2 (0 : Fin 1) e) := by
  obtain ⟨-, -, -, -, e20, e21, -, -⟩ := idx_facts2 t
  unfold iblk2
  rw [View.read_apply]
  show (V c main_v18 : S1x1024.Idx → EReal) _ = (V c main_v18 : S1x1024.Idx → EReal) _
  congr 1
  funext a
  apply Fin.ext
  match a with
  | ⟨0, _⟩ => show win2_2.index t (0 : Fin 2) * 1 + 1 * 0 = 0; omega
  | ⟨1, _⟩ => show win2_2.index t (1 : Fin 2) * 512 + 1 * q.val = e.val; omega

/-- What a grid point writes back is its block of `G2` of the three arrays as the region finds them. -/
theorem flushed2_eq (c : Dev nD) (t : Fin cfg2.N) :
    (dat2 (F := Ideal) V c).flushed 3 t
      = ((cfg2.win 3).blk t).view.read (Elt Ideal) (G2 (V c main_v17) (V c main_arg3) (V c main_v18)) := by
  show (cfg2.win 3).cut (grid2.coords t) ((dat2 (F := Ideal) V c).after 3 t) = _
  rw [after2_3]
  unfold out2_3
  rw [View.canon_unit_zero zero_offsets]
  simp only [View.ld_unit_zero (S := S1024x1024) zero_offsets, View.ld_unit_zero (S := S512x1024) zero_offsets,
    View.ld_unit_zero (S := S1x512) zero_offsets]
  obtain ⟨-, -, -, -, -, -, b0, b1⟩ := idx_facts2 t
  funext j
  obtain ⟨p, q, rfl⟩ : ∃ (p : Fin 1024) (q : Fin 512), j = ix2 p q := ⟨j 0, j 1, eq_ix2 j⟩
  have hp := p.isLt
  have hq := q.isLt
  have hemb : ((cfg2.win 3).blk t).view.emb (ix2 p q)
      = ix2 (⟨win2_3.index t (0 : Fin 2) * 1024 + p.val, by omega⟩ : Fin 8192)
          (⟨win2_3.index t (1 : Fin 2) * 512 + q.val, by omega⟩ : Fin 1024) := by
    funext a
    apply Fin.ext
    match a with
    | ⟨0, _⟩ => show win2_3.index t (0 : Fin 2) * 1024 + 1 * p.val = win2_3.index t (0 : Fin 2) * 1024 + p.val; omega
    | ⟨1, _⟩ => show win2_3.index t (1 : Fin 2) * 512 + 1 * q.val = win2_3.index t (1 : Fin 2) * 512 + q.val; omega
  show (k2_pay1 (F := Ideal) (iblk2 V c 0 t) (iblk2 V c 1 t) (iblk2 V c 2 t) : S1024x512.Idx → EReal) (ix2 p q)
    = G2 (V c main_v17) (V c main_arg3) (V c main_v18) (((cfg2.win 3).blk t).view.emb (ix2 p q))
  rw [hemb]
  refine (pay2_apply _ _ _ p q).trans ?_
  unfold G2 Cert.Attn.lin
  refine congrArg₂ (· + ·) (Finset.sum_congr rfl fun k _ => ?_) ?_
  · exact congrArg₂ (· * ·) (blk2_0_apply V c t p k _ rfl) (blk2_1_apply V c t q k _ rfl)
  · exact blk2_2_apply V c t q _ rfl

/-- An index of the output array is in a point's block iff each coordinate is in the block's range on its axis. -/
theorem mem_blk2 (t : Fin cfg2.N) (i : S8192x1024.Idx) :
    i ∈ ((cfg2.win 3).blk t).view.set ↔ ∀ a : Fin 2, win2_3.index t a * S1024x512.size a ≤ (i a).val
      ∧ (i a).val < win2_3.index t a * S1024x512.size a + S1024x512.size a := by
  show i ∈ ((View.whole main_v19).slice (win2_3.rect t)).set ↔ _
  rw [View.set_slice_whole, Rect.mem_set_unit]
  exact Iff.rfl

/-- Every entry of the output array lies in the block of the point whose block row is r / 1024 and block column e / 512. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := idx_onto2 ⟨(i 0).val / 1024, by omega⟩ ⟨(i 1).val / 512, by omega⟩
  have q0 : win2_3.index t (0 : Fin 2) = (i 0).val / 1024 := congrFun ht 0
  have q1 : win2_3.index t (1 : Fin 2) = (i 1).val / 512 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- The output array after the whole grid: `G2` of the three arrays as the region finds them. -/
theorem arr2_eq (c : Dev nD) :
    (dat2 (F := Ideal) V c).arrAt 3 cfg2.N = G2 (V c main_v17) (V c main_arg3) (V c main_v18) :=
  (dat2 (F := Ideal) V c).arrAt_eq_of_cover 3 (G2 (V c main_v17) (V c main_arg3) (V c main_v18))
    (fun t _ => flushed2_eq V c t) cover2

/-- Entry (r, e) of the output projection's array after the whole grid. -/
theorem final2 (c : Dev nD) (r : Fin 8192) (e : Fin 1024) :
    ((dat2 (F := Ideal) V c).arrAt 3 cfg2.N : S8192x1024.Idx → EReal) (ix2 r e)
      = Cert.Attn.lin (fun (r : Fin 8192) (k : Fin 1024) => (V c main_v17 : S8192x1024.Idx → EReal) (ix2 r k))
          (fun (e : Fin 1024) (k : Fin 1024) => (V c main_arg3 : S1024x1024.Idx → EReal) (ix2 e k))
          (fun e : Fin 1024 => (V c main_v18 : S1x1024.Idx → EReal) (ix2 (0 : Fin 1) e)) r e := by
  rw [arr2_eq]
  rfl

end Cert.KernelIdeal.RegProj

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.RegAttn.lean ====
/-
  The attention region: what its output array holds after the last grid point.

  Grid point (g, h) takes rows h·1024 … h·1024 + 1023 of head g of the query array and the whole of head g of the key and
  value arrays. For each of its query rows the body forms the scores against every key row (inner product over the 64
  features, times 1/8), the row's maximum from −∞, the weights exp (score − maximum), their sum, and stores the weighted
  combination of the value rows multiplied once by the reciprocal of that sum. Entry (g, n, d) of the output array lies in
  the block of point (g, n / 1024), and the blocks cover the array, so the array ends holding, at every entry, the context
  feature normalised once at the end (`Cert.Attn.headK`) of that head's query row against that head's key and value rows.
-/
import proofs.«157207_j54984171323822_2_alg».proof.Proof.Gen.KernelIdeal.Frame
import proofs.«157207_j54984171323822_2_alg».proof.Proof.Spec
import proofs.«157207_j54984171323822_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegAttn

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at one entry of its result

The body's result block is one term of its three loaded blocks. Each stage of it that is not entrywise is named
below and read at an entry: the two matrix products, the row maximum spread back over the row, and the row sum as a
column. -/

/-- The maximum along the rows of a matrix: at `p`, the fold of `max`, from the starting value, over the columns `q`
    of the entry `(p, q)`. -/
theorem max_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun q => src (ix2 p q)) := by
  refine (Ideal.multiReduction_maximumf_single src acc h hφ hacc (ix1 p)).trans ?_
  refine Finset.fold_congr fun q _ => ?_
  exact congrArg src (funext fun d => Fin.ext (by match d with | ⟨0, _⟩ => rfl | ⟨1, _⟩ => rfl))

/-- The product of a block of query rows with the transposed key rows, into a zero accumulator. -/
def qkT (q : FVec Ideal S1024x64 .bf16) (k : FVec Ideal S2048x64 .bf16) : FVec Ideal S1024x2048 .f32 :=
  matmul dot_S1024x64_S2048x64_S1024x2048_1_1_0_0_n_n none q k (constant S1024x2048 .f32 0x00000000#32)

/-- The product's left operand is read at the result's row. -/
theorem qkT_lhs0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
/-- The product's right operand is read at the row the result's column names. -/
theorem qkT_rhs0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl

/-- Entry `(p, m)` of it is the inner product of query row `p` and key row `m`. -/
theorem qkT_apply (q : FVec Ideal S1024x64 .bf16) (k : FVec Ideal S2048x64 .bf16) (p : Fin 1024) (m : Fin 2048) :
    qkT q k (ix2 p m) = ∑ d' : Fin 64, q (ix2 p d') * k (ix2 m d') := by
  unfold qkT
  simp only [matmul]
  rw [Ideal.matmul_constant_zero_apply, ← Equiv.sum_comp (contrEquiv1 dot_S1024x64_S2048x64_S1024x2048_1_1_0_0_n_n 64 rfl rfl).symm]
  refine Finset.sum_congr rfl fun d' _ => ?_
  have hk := contrEquiv1_symm_val dot_S1024x64_S2048x64_S1024x2048_1_1_0_0_n_n 64 rfl rfl d'
  have el : dot_S1024x64_S2048x64_S1024x2048_1_1_0_0_n_n.lhsIdx (ix2 p m) ((contrEquiv1 dot_S1024x64_S2048x64_S1024x2048_1_1_0_0_n_n 64 rfl rfl).symm d') = ix2 p d' := funext fun a => Fin.ext (by
    match a with
    | ⟨0, _⟩ => exact qkT_lhs0 _ _
    | ⟨1, _⟩ => exact (dot_S1024x64_S2048x64_S1024x2048_1_1_0_0_n_n.lhsIdx_val_of_single rfl (ix2 p m) _).trans hk)
  have er : dot_S1024x64_S2048x64_S1024x2048_1_1_0_0_n_n.rhsIdx (ix2 p m) ((contrEquiv1 dot_S1024x64_S2048x64_S1024x2048_1_1_0_0_n_n 64 rfl rfl).symm d') = ix2 m d' := funext fun a => Fin.ext (by
    match a with
    | ⟨0, _⟩ => exact qkT_rhs0 _ _
    | ⟨1, _⟩ => exact (dot_S1024x64_S2048x64_S1024x2048_1_1_0_0_n_n.rhsIdx_val_of_single rfl (ix2 p m) _).trans hk)
  rw [el, er]

/-- The product of a block of weight rows with the value rows, into a zero accumulator. -/
def wv (w : FVec Ideal S1024x2048 .bf16) (v : FVec Ideal S2048x64 .bf16) : FVec Ideal S1024x64 .f32 :=
  matmul dot_S1024x2048_S2048x64_S1024x64_1_0_0_1_n_n none w v (constant S1024x64 .f32 0x00000000#32)

/-- The product's left operand is read at the result's row. -/
theorem wv_lhs0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
/-- The product's right operand is read at the result's column. -/
theorem wv_rhs1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Entry `(p, d)` of it is the combination of the value rows' feature `d` with the weights of row `p`. -/
theorem wv_apply (w : FVec Ideal S1024x2048 .bf16) (v : FVec Ideal S2048x64 .bf16) (p : Fin 1024) (d : Fin 64) :
    wv w v (ix2 p d) = ∑ m : Fin 2048, w (ix2 p m) * v (ix2 m d) := by
  unfold wv
  simp only [matmul]
  rw [Ideal.matmul_constant_zero_apply, ← Equiv.sum_comp (contrEquiv1 dot_S1024x2048_S2048x64_S1024x64_1_0_0_1_n_n 2048 rfl rfl).symm]
  refine Finset.sum_congr rfl fun m _ => ?_
  have hk := contrEquiv1_symm_val dot_S1024x2048_S2048x64_S1024x64_1_0_0_1_n_n 2048 rfl rfl m
  have el : dot_S1024x2048_S2048x64_S1024x64_1_0_0_1_n_n.lhsIdx (ix2 p d) ((contrEquiv1 dot_S1024x2048_S2048x64_S1024x64_1_0_0_1_n_n 2048 rfl rfl).symm m) = ix2 p m := funext fun a => Fin.ext (by
    match a with
    | ⟨0, _⟩ => exact wv_lhs0 _ _
    | ⟨1, _⟩ => exact (dot_S1024x2048_S2048x64_S1024x64_1_0_0_1_n_n.lhsIdx_val_of_single rfl (ix2 p d) _).trans hk)
  have er : dot_S1024x2048_S2048x64_S1024x64_1_0_0_1_n_n.rhsIdx (ix2 p d) ((contrEquiv1 dot_S1024x2048_S2048x64_S1024x64_1_0_0_1_n_n 2048 rfl rfl).symm m) = ix2 m d := funext fun a => Fin.ext (by
    match a with
    | ⟨0, _⟩ => exact (dot_S1024x2048_S2048x64_S1024x64_1_0_0_1_n_n.rhsIdx_val_of_single rfl (ix2 p d) _).trans hk
    | ⟨1, _⟩ => exact wv_rhs1 _ _)
  rw [el, er]

/-- Each row's maximum, from −∞, spread back over the row. -/
def rowMaxMat (s : FVec Ideal S1024x2048 .f32) : FVec Ideal S1024x2048 .f32 :=
  broadcastTo S1024x2048
    (shapeCast S1024x1 (multiReduction .maximumf [1] S1024 s 0xFF800000#32 reduces_S1024x2048_S1024 (.inl rfl) rfl) shapeCasts_S1024_S1024x1)
    broadcasts_S1024x1_S1024x2048

/-- Entry `(p, m)` of it is the maximum of row `p`. -/
theorem rowMaxMat_apply (s : FVec Ideal S1024x2048 .f32) (p : Fin 1024) (m : Fin 2048) :
    rowMaxMat s (ix2 p m) = Cert.Attn.rowMax (fun q : Fin 2048 => s (ix2 p q)) := by
  unfold rowMaxMat
  refine (Cert.LibKeepdims.broadcastTo_a1_ab_apply _ _ p m).trans ?_
  refine (Cert.LibKeepdims.shapeCast_a_a1_apply _ _ p 0).trans ?_
  exact max_axis1_apply s _ _ _ _ p

/-- Each row's sum, as a column. -/
def rowSumCol (w : FVec Ideal S1024x2048 .f32) : FVec Ideal S1024x1 .f32 :=
  shapeCast S1024x1 (multiReduction .add [1] S1024 w 0x00000000#32 reduces_S1024x2048_S1024 (.inl rfl) rfl) shapeCasts_S1024_S1024x1

/-- Its entry `(p, 0)` is the sum of row `p`. -/
theorem rowSumCol_apply (w : FVec Ideal S1024x2048 .f32) (p : Fin 1024) (u : Fin 1) :
    rowSumCol w (ix2 p u) = ∑ m : Fin 2048, w (ix2 p m) := by
  unfold rowSumCol
  refine (Cert.LibKeepdims.shapeCast_a_a1_apply _ _ p u).trans ?_
  exact Cert.LibKeepdims.add_axis1_apply w _ _ _ _ p

/-- The scaled scores of a block of query rows against a head's key rows, from the two loaded blocks. -/
def scoresMat (x0 : Vec Ideal S1x1024x64 .bf16) (x1 : Vec Ideal S1x2048x64 .bf16) : FVec Ideal S1024x2048 .f32 :=
  mulf (qkT (shapeCast S1024x64 x0 shapeCasts_S1x1024x64_S1024x64) (shapeCast S2048x64 x1 shapeCasts_S1x2048x64_S2048x64))
    (broadcast S1024x2048 (Scalar.ofBits (F := Ideal) .f32 0x3E000000#32))

/-- Entry `(p, m)` of it is the scaled score of the block's query row `p` against key row `m`. -/
theorem scoresMat_apply (x0 : Vec Ideal S1x1024x64 .bf16) (x1 : Vec Ideal S1x2048x64 .bf16) (p : Fin 1024) (m : Fin 2048) :
    scoresMat x0 x1 (ix2 p m)
      = Cert.Attn.score (fun d' : Fin 64 => x0 (ix3 (0 : Fin 1) p d')) (fun (m' : Fin 2048) (d' : Fin 64) => x1 (ix3 (0 : Fin 1) m' d')) m := by
  unfold scoresMat Cert.Attn.score
  rw [mulf_apply, broadcast_apply, qkT_apply]
  simp only [shapeCast_1ab_ab_apply]
  rfl

/-- The unnormalised weights of every row of a matrix of scores. -/
def wgtMat (s : FVec Ideal S1024x2048 .f32) : FVec Ideal S1024x2048 .f32 := exp (subf s (rowMaxMat s))

/-- Entry `(p, m)` of it is the weight of column `m` in row `p`. -/
theorem wgtMat_apply (s : FVec Ideal S1024x2048 .f32) (p : Fin 1024) (m : Fin 2048) :
    wgtMat s (ix2 p m) = Cert.Attn.wgt (fun q : Fin 2048 => s (ix2 p q)) m := by
  unfold wgtMat Cert.Attn.wgt
  show Ideal.exp (s (ix2 p m) - rowMaxMat s (ix2 p m)) = _
  rw [rowMaxMat_apply]

/-- The body's result block as one term of its loaded blocks, over the named stages. -/
theorem pay_eq (x0 : Vec Ideal S1x1024x64 .bf16) (x1 x2 : Vec Ideal S1x2048x64 .bf16) :
    k1_pay1 x0 x1 x2
      = shapeCast S1x1024x64
          (truncf .bf16
            (mulf (wv (truncf .bf16 (wgtMat (scoresMat x0 x1)) bitsLt_bf16_f32) (shapeCast S2048x64 x2 shapeCasts_S1x2048x64_S2048x64))
              (broadcastTo S1024x64
                (divf (broadcast S1024x1 (Scalar.ofBits (F := Ideal) .f32 0x3F800000#32)) (rowSumCol (wgtMat (scoresMat x0 x1))))
                broadcasts_S1024x1_S1024x64))
            bitsLt_bf16_f32)
          shapeCasts_S1024x64_S1x1024x64 := rfl

/-- THE BODY'S RESULT AT AN ENTRY: row `p`, feature `d` of the block the body stores is the context feature, normalised once
    at the end, of the loaded query row `p` against the loaded key and value rows. -/
theorem pay_apply (x0 : Vec Ideal S1x1024x64 .bf16) (x1 x2 : Vec Ideal S1x2048x64 .bf16) (p : Fin 1024) (d : Fin 64) :
    k1_pay1 x0 x1 x2 (ix3 (0 : Fin 1) p d)
      = Cert.Attn.headK
          (Cert.Attn.score (fun d' : Fin 64 => x0 (ix3 (0 : Fin 1) p d')) (fun (m : Fin 2048) (d' : Fin 64) => x1 (ix3 (0 : Fin 1) m d')))
          (fun m : Fin 2048 => x2 (ix3 (0 : Fin 1) m d)) := by
  rw [pay_eq, shapeCast_ab_1ab_apply, truncf_apply, mulf_apply, wv_apply, Cert.LibKeepdims.broadcastTo_a1_ab_apply, divf_apply,
    broadcast_apply, rowSumCol_apply]
  unfold Cert.Attn.headK Cert.Attn.den
  simp only [truncf_apply, wgtMat_apply, scoresMat_apply, shapeCast_1ab_ab_apply]
  rfl

/-! ## From the blocks to the array

One function of the three input arrays whose block at every grid point is what the body stores there; the output's
blocks cover its array, so the array ends holding that function. -/

theorem offsets_zero : (![0, 0, 0] : Fin 3 → Nat) = fun _ => 0 := funext fun a => by fin_cases a <;> rfl

/-- Feature `d` of the context vector of head `g` at position `n`, normalised once at the end, from the query, key
    and value arrays. -/
def ctxAt (a0 a1 a2 : S64x2048x64.Idx → EReal) (g : Fin 64) (n : Fin 2048) (d : Fin 64) : EReal :=
  Cert.Attn.headK
    (Cert.Attn.score (fun d' : Fin 64 => a0 (ix3 g n d')) (fun (m : Fin 2048) (d' : Fin 64) => a1 (ix3 g m d')))
    (fun m : Fin 2048 => a2 (ix3 g m d))

/-- The whole output array as one function of the three input arrays. -/
def ctxArr (a0 a1 a2 : S64x2048x64.Idx → EReal) : S64x2048x64.Idx → EReal := fun i => ctxAt a0 a1 a2 (i 0) (i 1) (i 2)

/-- The body's result at an entry `y` of its block is the output array's function at the array entry `i`, once the
    loaded query row is row `(i 0, i 1)` of the query array, the loaded key and value blocks are head `i 0` of theirs, and the
    feature is the same. -/
theorem block_apply (x0 : Vec Ideal S1x1024x64 .bf16) (x1 x2 : Vec Ideal S1x2048x64 .bf16) (a0 a1 a2 : S64x2048x64.Idx → EReal)
    (y : S1x1024x64.Idx) (i : S64x2048x64.Idx) (hd : (y 2).val = (i 2).val)
    (h0 : ∀ d' : Fin 64, x0 (ix3 (n0 := 1) (n1 := 1024) (n2 := 64) 0 (y 1) d') = a0 (ix3 (n0 := 64) (n1 := 2048) (n2 := 64) (i 0) (i 1) d'))
    (h1 : ∀ (m : Fin 2048) (d' : Fin 64), x1 (ix3 (n0 := 1) (n1 := 2048) (n2 := 64) 0 m d') = a1 (ix3 (n0 := 64) (n1 := 2048) (n2 := 64) (i 0) m d'))
    (h2 : ∀ (m : Fin 2048) (d' : Fin 64), x2 (ix3 (n0 := 1) (n1 := 2048) (n2 := 64) 0 m d') = a2 (ix3 (n0 := 64) (n1 := 2048) (n2 := 64) (i 0) m d')) :
    k1_pay1 x0 x1 x2 y = ctxArr a0 a1 a2 i := by
  obtain ⟨u, p, d, rfl⟩ : ∃ (u : Fin 1) (p : Fin 1024) (d : Fin 64), y = ix3 u p d := ⟨y 0, y 1, y 2, eq_ix3 y⟩
  obtain ⟨g, n, e, rfl⟩ : ∃ (g : Fin 64) (n : Fin 2048) (e : Fin 64), i = ix3 g n e := ⟨i 0, i 1, i 2, eq_ix3 i⟩
  have h0' : ∀ d' : Fin 64, x0 (ix3 (0 : Fin 1) p d') = a0 (ix3 g n d') := h0
  have h1' : ∀ (m : Fin 2048) (d' : Fin 64), x1 (ix3 (0 : Fin 1) m d') = a1 (ix3 g m d') := h1
  have h2' : ∀ (m : Fin 2048) (d' : Fin 64), x2 (ix3 (0 : Fin 1) m d') = a2 (ix3 g m d') := h2
  obtain rfl : d = e := Fin.ext hd
  obtain rfl : u = 0 := Subsingleton.elim _ _
  rw [pay_apply]
  show _ = ctxAt a0 a1 a2 g n d
  unfold ctxAt
  simp only [h0', h1', h2']

/-- The printed index maps, decided over the grid: point `t` is head `t / 2`, half `t % 2` of the positions; the query
    and the output move with both, the key and value blocks with the head only. -/
theorem idx_facts : ∀ t : Fin cfg1.N,
    win1_3.index t (0 : Fin 3) = t.val / 2 ∧ win1_3.index t (1 : Fin 3) = t.val % 2 ∧ win1_3.index t (2 : Fin 3) = 0
    ∧ win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = 0 :=
  (by decide +kernel : ∀ t : Fin grid1.N, _)

variable (V : (c : Dev nD) → (b : Ref sig .tc) → Buf (Elt Ideal) ((c : Thread nD τ).loc b))

/-- WHAT POINT `t` WRITES BACK is block `t` of `ctxArr` of the three input arrays as the region finds them. -/
theorem flushed_eq (c : Dev nD) (t : Fin cfg1.N) :
    (dat1 (F := Ideal) V c).flushed 3 t
      = ((cfg1.win 3).blk t).view.read (Elt Ideal) (ctxArr (V c main_v7) (V c main_v10) (V c main_v13)) := by
  show (cfg1.win 3).cut (grid1.coords t) ((dat1 (F := Ideal) V c).after 3 t) = _
  rw [after1_3]
  unfold out1_3
  rw [View.canon_unit_zero offsets_zero]
  simp only [View.ld_unit_zero (S := S1x1024x64) offsets_zero, View.ld_unit_zero (S := S1x2048x64) offsets_zero]
  obtain ⟨e30, e31, e32, e00, e01, e02, e10, e11, e12, e20, e21, e22⟩ := idx_facts t
  funext y
  show k1_pay1 (iblk1 V c 0 t) (iblk1 V c 1 t) (iblk1 V c 2 t) y
    = ctxArr (V c main_v7) (V c main_v10) (V c main_v13) (((cfg1.win 3).blk t).view.emb y)
  refine block_apply _ _ _ _ _ _ y _ ?_ ?_ ?_ ?_
  · show (y 2).val = win1_3.index t (2 : Fin 3) * 64 + 1 * (y 2).val
    omega
  · intro d'
    show V c main_v7 (((cfg1.win 0).blk t).view.emb (ix3 (n0 := 1) (n1 := 1024) (n2 := 64) 0 (y 1) d'))
      = V c main_v7 (ix3 (n0 := 64) (n1 := 2048) (n2 := 64) ((((cfg1.win 3).blk t).view.emb y) 0) ((((cfg1.win 3).blk t).view.emb y) 1) d')
    refine congrArg _ (funext fun a => Fin.ext ?_)
    have hy0 : (y 0).val < 1 := (y 0).isLt
    match a with
    | ⟨0, _⟩ => show win1_0.index t (0 : Fin 3) * 1 + 1 * 0 = win1_3.index t (0 : Fin 3) * 1 + 1 * (y 0).val; omega
    | ⟨1, _⟩ => show win1_0.index t (1 : Fin 3) * 1024 + 1 * (y 1).val = win1_3.index t (1 : Fin 3) * 1024 + 1 * (y 1).val; omega
    | ⟨2, _⟩ => show win1_0.index t (2 : Fin 3) * 64 + 1 * d'.val = d'.val; omega
  · intro m d'
    show V c main_v10 (((cfg1.win 1).blk t).view.emb (ix3 (n0 := 1) (n1 := 2048) (n2 := 64) 0 m d'))
      = V c main_v10 (ix3 (n0 := 64) (n1 := 2048) (n2 := 64) ((((cfg1.win 3).blk t).view.emb y) 0) m d')
    refine congrArg _ (funext fun a => Fin.ext ?_)
    have hy0 : (y 0).val < 1 := (y 0).isLt
    match a with
    | ⟨0, _⟩ => show win1_1.index t (0 : Fin 3) * 1 + 1 * 0 = win1_3.index t (0 : Fin 3) * 1 + 1 * (y 0).val; omega
    | ⟨1, _⟩ => show win1_1.index t (1 : Fin 3) * 2048 + 1 * m.val = m.val; omega
    | ⟨2, _⟩ => show win1_1.index t (2 : Fin 3) * 64 + 1 * d'.val = d'.val; omega
  · intro m d'
    show V c main_v13 (((cfg1.win 2).blk t).view.emb (ix3 (n0 := 1) (n1 := 2048) (n2 := 64) 0 m d'))
      = V c main_v13 (ix3 (n0 := 64) (n1 := 2048) (n2 := 64) ((((cfg1.win 3).blk t).view.emb y) 0) m d')
    refine congrArg _ (funext fun a => Fin.ext ?_)
    have hy0 : (y 0).val < 1 := (y 0).isLt
    match a with
    | ⟨0, _⟩ => show win1_2.index t (0 : Fin 3) * 1 + 1 * 0 = win1_3.index t (0 : Fin 3) * 1 + 1 * (y 0).val; omega
    | ⟨1, _⟩ => show win1_2.index t (1 : Fin 3) * 2048 + 1 * m.val = m.val; omega
    | ⟨2, _⟩ => show win1_2.index t (2 : Fin 3) * 64 + 1 * d'.val = d'.val; omega

/-- An index of the array is in point `t`'s block iff each coordinate is in the block's range on its axis. -/
theorem mem_blk (t : Fin cfg1.N) (i : S64x2048x64.Idx) :
    i ∈ ((cfg1.win 3).blk t).view.set
      ↔ ∀ a : Fin 3, win1_3.index t a * S1x1024x64.size a ≤ (i a).val ∧ (i a).val < win1_3.index t a * S1x1024x64.size a + S1x1024x64.size a := by
  show i ∈ ((View.whole main_v14).slice (win1_3.rect t)).set ↔ _
  rw [View.set_slice_whole, Rect.mem_set_unit]
  exact Iff.rfl

/-- Every entry of the array is in some point's block: entry `(g, n, d)` in that of head `g`, half `n / 1024`. -/
theorem cover (i : S64x2048x64.Idx) : ∃ t : Fin cfg1.N, (cfg1.win 3).flush t = true ∧ i ∈ ((cfg1.win 3).blk t).view.set := by
  have hN : cfg1.N = 128 := N_1
  have hi0 : (i 0).val < 64 := (i 0).isLt
  have hi1 : (i 1).val < 2048 := (i 1).isLt
  have hi2 : (i 2).val < 64 := (i 2).isLt
  obtain ⟨t, ht⟩ : ∃ t : Fin cfg1.N, t.val = (i 0).val * 2 + (i 1).val / 1024 := ⟨⟨(i 0).val * 2 + (i 1).val / 1024, by rw [hN]; omega⟩, rfl⟩
  obtain ⟨e30, e31, e32, -⟩ := idx_facts t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- THE ARRAY after the region's last point: `ctxArr` of the three input arrays as the region finds them. -/
theorem final_arr (c : Dev nD) :
    (dat1 (F := Ideal) V c).arrAt 3 cfg1.N = ctxArr (V c main_v7) (V c main_v10) (V c main_v13) :=
  (dat1 (F := Ideal) V c).arrAt_eq_of_cover 3 (ctxArr (V c main_v7) (V c main_v10) (V c main_v13)) (fun t _ => flushed_eq V c t) cover

/-- Entry `(g, n, d)` of the output array after the region: feature `d` of the context vector of head `g` at position `n`,
    normalised once at the end, from the query, key and value arrays as the region finds them. -/
theorem final1 (c : Dev nD) (g : Fin 64) (n : Fin 2048) (d : Fin 64) :
    ((dat1 (F := Ideal) V c).arrAt 3 cfg1.N : S64x2048x64.Idx → EReal) (ix3 g n d)
      = Cert.Attn.headK
          (Cert.Attn.score (fun d' : Fin 64 => (V c main_v7 : S64x2048x64.Idx → EReal) (ix3 g n d'))
            (fun (m : Fin 2048) (d' : Fin 64) => (V c main_v10 : S64x2048x64.Idx → EReal) (ix3 g m d')))
          (fun m : Fin 2048 => (V c main_v13 : S64x2048x64.Idx → EReal) (ix3 g m d)) := by
  have h : ((dat1 (F := Ideal) V c).arrAt 3 cfg1.N : S64x2048x64.Idx → EReal) (ix3 g n d)
      = ctxAt (V c main_v7) (V c main_v10) (V c main_v13) g n d := congrFun (final_arr V c) (ix3 g n d)
  rw [h]
  rfl

end Cert.KernelIdeal.RegAttn

end
-- ==== Proof.Glue.lean ====
/-
  Between the regions. The host operations around the three kernel regions only move data: the input rows are
  flattened, the fused projection's channels are split into the query, key and value parts of sixteen heads (a reshape,
  a transpose and a slice), the heads' context vectors are laid side by side again, and the result rows are unflattened.
  Read at coordinates:
  * the projection region is entered with row `bt · 2048 + n` of its input holding `x[bt, n, ·]`;
  * the attention region is entered with entry `(bt · 16 + h, n, d)` of its query / key / value array holding channel
    `s · 1024 + h · 64 + d` (`s` = 0, 1, 2) of row `bt · 2048 + n` of the projection's result;
  * the output projection is entered with entry `(bt · 2048 + n, h · 64 + d)` holding entry `(bt · 16 + h, n, d)` of the
    attention's result;
  * the result at `(bt, n, e)` is the output projection's row `bt · 2048 + n`, channel `e`.
  Composed with what each region leaves in its output array, the result is the specification's `outK` of the five
  argument arrays.
-/
import proofs.«157207_j54984171323822_2_alg».proof.Proof.Gen.KernelIdeal.Frame
import proofs.«157207_j54984171323822_2_alg».proof.Proof.Spec
import proofs.«157207_j54984171323822_2_alg».proof.Proof.LibHeads
import proofs.«157207_j54984171323822_2_alg».proof.Proof.RegProj
import proofs.«157207_j54984171323822_2_alg».proof.Proof.RegAttn
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Glue

open Cert.KernelIdeal Cert.KernelIdeal.Gen Idealize.ShloMosaic Idealize.ShloMosaic.TcCoe Idealize.SL.Sem
open Idealize.ShloMosaic.ValueIdx Idealize.ShloMosaic.StableHlo

/-! ## Each host stretch, over any contents it starts from -/

section Stretches
variable (X : Valuation τ sig (Elt Ideal))

theorem ops0_v0 : after (hostOps0 (F := Ideal)) X (Proc.devRef .tc main_v0)
    = shapeCast S8192x1024 (X (Proc.devRef .tc main_arg0)) shapeCasts_S4x2048x1024_S8192x1024 := by
  after_results; rfl

theorem ops0_v1 : after (hostOps0 (F := Ideal)) X (Proc.devRef .tc main_v1)
    = shapeCast S1x3072 (X (Proc.devRef .tc main_arg2)) shapeCasts_S3072_S1x3072 := by
  after_results; rfl

theorem ops0_arg1 : after (hostOps0 (F := Ideal)) X (Proc.devRef .tc main_arg1) = X (Proc.devRef .tc main_arg1) := by
  after_results

/-- The transposed five-axis array every part is cut from. -/
def parts (v2 : S8192x3072.Idx → Elt Ideal .bf16) : S3x4x16x2048x64.Idx → Elt Ideal .bf16 :=
  transpose S3x4x16x2048x64 [2, 0, 3, 1, 4] (shapeCast S4x2048x3x16x64 v2 shapeCasts_S8192x3072_S4x2048x3x16x64)
    transposes_S4x2048x3x16x64_S3x4x16x2048x64_2_0_3_1_4

theorem ops1_v7 : after (hostOps1 (F := Ideal)) X (Proc.devRef .tc main_v7)
    = shapeCast S64x2048x64 (shapeCast S4x16x2048x64
        (extractStridedSlice S1x4x16x2048x64 ![0, 0, 0, 0, 0] (parts (X (Proc.devRef .tc main_v2))) slices_S3x4x16x2048x64_S1x4x16x2048x64_0_0_0_0_0)
        shapeCasts_S1x4x16x2048x64_S4x16x2048x64) shapeCasts_S4x16x2048x64_S64x2048x64 := by
  after_results; rfl

theorem ops1_v10 : after (hostOps1 (F := Ideal)) X (Proc.devRef .tc main_v10)
    = shapeCast S64x2048x64 (shapeCast S4x16x2048x64
        (extractStridedSlice S1x4x16x2048x64 ![1, 0, 0, 0, 0] (parts (X (Proc.devRef .tc main_v2))) slices_S3x4x16x2048x64_S1x4x16x2048x64_1_0_0_0_0)
        shapeCasts_S1x4x16x2048x64_S4x16x2048x64) shapeCasts_S4x16x2048x64_S64x2048x64 := by
  after_results; rfl

theorem ops1_v13 : after (hostOps1 (F := Ideal)) X (Proc.devRef .tc main_v13)
    = shapeCast S64x2048x64 (shapeCast S4x16x2048x64
        (extractStridedSlice S1x4x16x2048x64 ![2, 0, 0, 0, 0] (parts (X (Proc.devRef .tc main_v2))) slices_S3x4x16x2048x64_S1x4x16x2048x64_2_0_0_0_0)
        shapeCasts_S1x4x16x2048x64_S4x16x2048x64) shapeCasts_S4x16x2048x64_S64x2048x64 := by
  after_results; rfl

theorem ops2_v17 : after (hostOps2 (F := Ideal)) X (Proc.devRef .tc main_v17)
    = shapeCast S8192x1024 (transpose S4x2048x16x64 [0, 2, 1, 3]
        (shapeCast S4x16x2048x64 (X (Proc.devRef .tc main_v14)) shapeCasts_S64x2048x64_S4x16x2048x64)
        transposes_S4x16x2048x64_S4x2048x16x64_0_2_1_3) shapeCasts_S4x2048x16x64_S8192x1024 := by
  after_results; rfl

theorem ops2_v18 : after (hostOps2 (F := Ideal)) X (Proc.devRef .tc main_v18)
    = shapeCast S1x1024 (X (Proc.devRef .tc main_arg4)) shapeCasts_S1024_S1x1024 := by
  after_results; rfl

theorem ops2_arg3 : after (hostOps2 (F := Ideal)) X (Proc.devRef .tc main_arg3) = X (Proc.devRef .tc main_arg3) := by
  after_results

theorem ops3_v20 : after (hostOps3 (F := Ideal)) X (Proc.devRef .tc main_v20)
    = shapeCast S4x2048x1024 (X (Proc.devRef .tc main_v19)) shapeCasts_S8192x1024_S4x2048x1024 := by
  after_results; rfl

/-- A host stretch leaves alone what it does not write. -/
theorem ops1_arg3 : after (hostOps1 (F := Ideal)) X (Proc.devRef .tc main_arg3) = X (Proc.devRef .tc main_arg3) := by
  after_results
theorem ops1_arg4 : after (hostOps1 (F := Ideal)) X (Proc.devRef .tc main_arg4) = X (Proc.devRef .tc main_arg4) := by
  after_results
theorem ops0_arg3 : after (hostOps0 (F := Ideal)) X (Proc.devRef .tc main_arg3) = X (Proc.devRef .tc main_arg3) := by
  after_results
theorem ops0_arg4 : after (hostOps0 (F := Ideal)) X (Proc.devRef .tc main_arg4) = X (Proc.devRef .tc main_arg4) := by
  after_results

end Stretches

/-! ## The stretches read at coordinates -/

section At
variable (X : Valuation τ sig (Elt Ideal))

theorem v0_at (bt : Fin 4) (n : Fin 2048) (k : Fin 1024) (r : Fin 8192) (hr : r.val = bt.val * 2048 + n.val) :
    (after (hostOps0 (F := Ideal)) X (Proc.devRef .tc main_v0) : S8192x1024.Idx → EReal) (ix2 r k)
      = (X (Proc.devRef .tc main_arg0) : S4x2048x1024.Idx → EReal) (ix3 bt n k) := by
  rw [ops0_v0]; exact Cert.LibHeads.flatten_rows_apply _ _ bt n k r hr

theorem v1_at (e : Fin 3072) :
    (after (hostOps0 (F := Ideal)) X (Proc.devRef .tc main_v1) : S1x3072.Idx → EReal) (ix2 (0 : Fin 1) e)
      = (X (Proc.devRef .tc main_arg2) : S3072.Idx → EReal) (ix1 e) := by
  rw [ops0_v1]; exact shapeCast_a_1a_apply _ _ 0 e

/-- Entry `(bt · 16 + h, n, d)` of a part is channel `s · 1024 + h · 64 + d` of row `bt · 2048 + n`. -/
theorem part_of_parts (v2 : S8192x3072.Idx → Elt Ideal .bf16) (o : ℕ)
    (hsl : S3x4x16x2048x64.Slices ![o, 0, 0, 0, 0] S1x4x16x2048x64) (s : Fin 3) (hs : s.val = o)
    (bt : Fin 4) (h : Fin 16) (n : Fin 2048) (d : Fin 64) (g : Fin 64) (hg : g.val = bt.val * 16 + h.val)
    (r : Fin 8192) (hr : r.val = bt.val * 2048 + n.val) (e : Fin 3072) (he : e.val = s.val * 1024 + h.val * 64 + d.val) :
    (shapeCast S64x2048x64 (shapeCast S4x16x2048x64
        (extractStridedSlice S1x4x16x2048x64 ![o, 0, 0, 0, 0] (parts v2) hsl)
        shapeCasts_S1x4x16x2048x64_S4x16x2048x64) shapeCasts_S4x16x2048x64_S64x2048x64 : S64x2048x64.Idx → EReal) (ix3 g n d)
      = (v2 : S8192x3072.Idx → EReal) (ix2 r e) := by
  refine (Cert.LibHeads.merge_groups_apply _ _ bt h n d g hg).trans ?_
  refine (Cert.LibHeads.drop_unit_apply _ _ bt h n d).trans ?_
  refine (Cert.LibHeads.slice_part_apply o _ _ s hs bt h n d).trans ?_
  unfold parts
  refine (Cert.LibHeads.transpose_heads_apply _ _ s bt h n d).trans ?_
  exact Cert.LibHeads.split_heads_apply _ _ bt n s h d r e hr he

theorem v17_at (bt : Fin 4) (n : Fin 2048) (h : Fin 16) (d : Fin 64) (r : Fin 8192) (hr : r.val = bt.val * 2048 + n.val)
    (a : Fin 1024) (ha : a.val = h.val * 64 + d.val) (g : Fin 64) (hg : g.val = bt.val * 16 + h.val) :
    (after (hostOps2 (F := Ideal)) X (Proc.devRef .tc main_v17) : S8192x1024.Idx → EReal) (ix2 r a)
      = (X (Proc.devRef .tc main_v14) : S64x2048x64.Idx → EReal) (ix3 g n d) := by
  rw [ops2_v17]
  refine (Cert.LibHeads.merge_heads_apply _ _ bt n h d r a hr ha).trans ?_
  refine (Cert.LibHeads.transpose_merge_apply _ _ bt n h d).trans ?_
  exact Cert.LibHeads.split_groups_apply _ _ bt h n d g hg

theorem v18_at (e : Fin 1024) :
    (after (hostOps2 (F := Ideal)) X (Proc.devRef .tc main_v18) : S1x1024.Idx → EReal) (ix2 (0 : Fin 1) e)
      = (X (Proc.devRef .tc main_arg4) : S1024.Idx → EReal) (ix1 e) := by
  rw [ops2_v18]; exact shapeCast_a_1a_apply _ _ 0 e

theorem v20_at (bt : Fin 4) (n : Fin 2048) (e : Fin 1024) (r : Fin 8192) (hr : r.val = bt.val * 2048 + n.val) :
    (after (hostOps3 (F := Ideal)) X (Proc.devRef .tc main_v20) : S4x2048x1024.Idx → EReal) (ix3 bt n e)
      = (X (Proc.devRef .tc main_v19) : S8192x1024.Idx → EReal) (ix2 r e) := by
  rw [ops3_v20]; exact Cert.LibHeads.unflatten_rows_apply _ _ bt n e r hr

end At

/-! ## The arguments that bypass regions, walked back to the launch memory -/

section Run
variable (m : (ℓ : Loc nD τ sig) → Buf (Elt Ideal) ℓ) (ρ : Dev nD → PrngReg)

theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := ops2_arg3 (W4 m ρ c)
    _ = W3 m ρ c (Proc.devRef .tc main_arg3) := W4_of_ne m ρ c main_arg3 (by decide)
    _ = W2 m ρ c (Proc.devRef .tc main_arg3) := ops1_arg3 (W2 m ρ c)
    _ = W1 m ρ c (Proc.devRef .tc main_arg3) := W2_of_ne m ρ c main_arg3 (by decide)
    _ = W0 m ρ c (Proc.devRef .tc main_arg3) := ops0_arg3 (W0 m ρ c)
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := ops1_arg4 (W2 m ρ c)
    _ = W1 m ρ c (Proc.devRef .tc main_arg4) := W2_of_ne m ρ c main_arg4 (by decide)
    _ = W0 m ρ c (Proc.devRef .tc main_arg4) := ops0_arg4 (W0 m ρ c)
    _ = m ((c : Thread nD τ).loc main_arg4) := rfl

/-! ## The five argument arrays as coordinate functions -/

/-- `x[bt, n, k]`. -/
abbrev xA (c : Dev nD) : Fin 4 → Fin 2048 → Fin 1024 → EReal :=
  fun bt n k => (m ((c : Thread nD τ).loc main_arg0) : S4x2048x1024.Idx → EReal) (ix3 bt n k)
/-- `w[e, k]`. -/
abbrev wA (c : Dev nD) : Fin 3072 → Fin 1024 → EReal :=
  fun e k => (m ((c : Thread nD τ).loc main_arg1) : S3072x1024.Idx → EReal) (ix2 e k)
/-- `b[e]`. -/
abbrev bA (c : Dev nD) : Fin 3072 → EReal :=
  fun e => (m ((c : Thread nD τ).loc main_arg2) : S3072.Idx → EReal) (ix1 e)
/-- `wo[e, a]`. -/
abbrev woA (c : Dev nD) : Fin 1024 → Fin 1024 → EReal :=
  fun e a => (m ((c : Thread nD τ).loc main_arg3) : S1024x1024.Idx → EReal) (ix2 e a)
/-- `bo[e]`. -/
abbrev boA (c : Dev nD) : Fin 1024 → EReal :=
  fun e => (m ((c : Thread nD τ).loc main_arg4) : S1024.Idx → EReal) (ix1 e)

/-! ## Through the regions -/

/-- The projection region leaves the fused projection: row `bt · 2048 + n`, channel `e` is `qkv[bt, n, e]`. -/
theorem v2_at (c : Dev nD) (bt : Fin 4) (n : Fin 2048) (e : Fin 3072) (r : Fin 8192) (hr : r.val = bt.val * 2048 + n.val) :
    (W2 m ρ c (Proc.devRef .tc main_v2) : S8192x3072.Idx → EReal) (ix2 r e)
      = Cert.Attn.qkv (xA m c) (wA m c) (bA m c) bt n e := by
  refine (congrFun (W2_arr m ρ c 3) (ix2 r e)).trans ?_
  refine (Cert.KernelIdeal.RegProj.final0 (V1 m ρ) c r e).trans ?_
  unfold Cert.Attn.lin Cert.Attn.qkv
  refine congrArg₂ (· + ·) (Finset.sum_congr rfl fun k _ => congrArg₂ (· * ·) ?_ ?_) ?_
  · exact v0_at (W0 m ρ c) bt n k r hr
  · exact congrFun (ops0_arg1 (W0 m ρ c)) (ix2 e k)
  · exact v1_at (W0 m ρ c) e

/-- The attention region is entered with the heads' query parts: entry `(bt · 16 + h, n, d)`. -/
theorem v7_at (c : Dev nD) (bt : Fin 4) (h : Fin 16) (n : Fin 2048) (d : Fin 64) (g : Fin 64) (hg : g.val = bt.val * 16 + h.val) :
    (W3 m ρ c (Proc.devRef .tc main_v7) : S64x2048x64.Idx → EReal) (ix3 g n d)
      = Cert.Attn.part (xA m c) (wA m c) (bA m c) 0 bt h n d := by
  refine (congrFun (ops1_v7 (W2 m ρ c)) (ix3 g n d)).trans ?_
  refine (part_of_parts _ 0 _ (0 : Fin 3) rfl bt h n d g hg ⟨bt.val * 2048 + n.val, by have := bt.isLt; have := n.isLt; omega⟩ rfl
    ⟨(0 : Fin 3).val * 1024 + h.val * 64 + d.val, by have := h.isLt; have := d.isLt; show 0 * 1024 + h.val * 64 + d.val < 3072; omega⟩ rfl).trans ?_
  exact v2_at m ρ c bt n _ _ rfl

/-- The attention region is entered with the heads' key parts: entry `(bt · 16 + h, n, d)`. -/
theorem v10_at (c : Dev nD) (bt : Fin 4) (h : Fin 16) (n : Fin 2048) (d : Fin 64) (g : Fin 64) (hg : g.val = bt.val * 16 + h.val) :
    (W3 m ρ c (Proc.devRef .tc main_v10) : S64x2048x64.Idx → EReal) (ix3 g n d)
      = Cert.Attn.part (xA m c) (wA m c) (bA m c) 1 bt h n d := by
  refine (congrFun (ops1_v10 (W2 m ρ c)) (ix3 g n d)).trans ?_
  refine (part_of_parts _ 1 _ (1 : Fin 3) rfl bt h n d g hg ⟨bt.val * 2048 + n.val, by have := bt.isLt; have := n.isLt; omega⟩ rfl
    ⟨(1 : Fin 3).val * 1024 + h.val * 64 + d.val, by have := h.isLt; have := d.isLt; show 1 * 1024 + h.val * 64 + d.val < 3072; omega⟩ rfl).trans ?_
  exact v2_at m ρ c bt n _ _ rfl

/-- The attention region is entered with the heads' value parts: entry `(bt · 16 + h, n, d)`. -/
theorem v13_at (c : Dev nD) (bt : Fin 4) (h : Fin 16) (n : Fin 2048) (d : Fin 64) (g : Fin 64) (hg : g.val = bt.val * 16 + h.val) :
    (W3 m ρ c (Proc.devRef .tc main_v13) : S64x2048x64.Idx → EReal) (ix3 g n d)
      = Cert.Attn.part (xA m c) (wA m c) (bA m c) 2 bt h n d := by
  refine (congrFun (ops1_v13 (W2 m ρ c)) (ix3 g n d)).trans ?_
  refine (part_of_parts _ 2 _ (2 : Fin 3) rfl bt h n d g hg ⟨bt.val * 2048 + n.val, by have := bt.isLt; have := n.isLt; omega⟩ rfl
    ⟨(2 : Fin 3).val * 1024 + h.val * 64 + d.val, by have := h.isLt; have := d.isLt; show 2 * 1024 + h.val * 64 + d.val < 3072; omega⟩ rfl).trans ?_
  exact v2_at m ρ c bt n _ _ rfl

/-- The attention region leaves the context vectors: entry `(bt · 16 + h, n, d)` is `ctxK[bt, h, n, d]`. -/
theorem v14_at (c : Dev nD) (bt : Fin 4) (h : Fin 16) (n : Fin 2048) (d : Fin 64) (g : Fin 64) (hg : g.val = bt.val * 16 + h.val) :
    (W4 m ρ c (Proc.devRef .tc main_v14) : S64x2048x64.Idx → EReal) (ix3 g n d)
      = Cert.Attn.ctxK (xA m c) (wA m c) (bA m c) bt h n d := by
  refine (congrFun (W4_arr m ρ c 3) (ix3 g n d)).trans ?_
  refine (Cert.KernelIdeal.RegAttn.final1 (V3 m ρ) c g n d).trans ?_
  have hq : (fun d' : Fin 64 => (V3 m ρ c main_v7 : S64x2048x64.Idx → EReal) (ix3 g n d'))
      = Cert.Attn.part (xA m c) (wA m c) (bA m c) 0 bt h n := funext fun d' => v7_at m ρ c bt h n d' g hg
  have hk : (fun (j : Fin 2048) (d' : Fin 64) => (V3 m ρ c main_v10 : S64x2048x64.Idx → EReal) (ix3 g j d'))
      = Cert.Attn.part (xA m c) (wA m c) (bA m c) 1 bt h := funext fun j => funext fun d' => v10_at m ρ c bt h j d' g hg
  have hv : (fun j : Fin 2048 => (V3 m ρ c main_v13 : S64x2048x64.Idx → EReal) (ix3 g j d))
      = fun j => Cert.Attn.part (xA m c) (wA m c) (bA m c) 2 bt h j d := funext fun j => v13_at m ρ c bt h j d g hg
  rw [hq, hk, hv]
  rfl

/-- The output projection is entered with the heads side by side: channel `a` of row `bt · 2048 + n` is feature
    `a % 64` of head `a / 64`. -/
theorem v17_entry (c : Dev nD) (bt : Fin 4) (n : Fin 2048) (a : Fin 1024) (r : Fin 8192) (hr : r.val = bt.val * 2048 + n.val) :
    (V5 m ρ c main_v17 : S8192x1024.Idx → EReal) (ix2 r a)
      = Cert.Attn.ctxK (xA m c) (wA m c) (bA m c) bt ⟨a.val / 64, by have := a.isLt; omega⟩ n ⟨a.val % 64, Nat.mod_lt _ (by decide)⟩ := by
  refine (v17_at (W4 m ρ c) bt n ⟨a.val / 64, by have := a.isLt; omega⟩ ⟨a.val % 64, Nat.mod_lt _ (by decide)⟩ r hr a
    (by show a.val = a.val / 64 * 64 + a.val % 64; omega)
    ⟨bt.val * 16 + a.val / 64, by have := bt.isLt; have := a.isLt; omega⟩ rfl).trans ?_
  exact v14_at m ρ c bt _ n _ _ rfl

/-- THE RESULT: at `(bt, n, e)` the kernel's result is the specification's `outK` of the five argument arrays. -/
theorem result_at (c : Dev nD) (bt : Fin 4) (n : Fin 2048) (e : Fin 1024) :
    (W7 m ρ c (Proc.devRef .tc main_v20) : S4x2048x1024.Idx → EReal) (ix3 bt n e)
      = Cert.Attn.outK (xA m c) (wA m c) (bA m c) (woA m c) (boA m c) bt n e := by
  have hr : (⟨bt.val * 2048 + n.val, by have := bt.isLt; have := n.isLt; omega⟩ : Fin 8192).val = bt.val * 2048 + n.val := rfl
  refine (v20_at (W6 m ρ c) bt n e _ hr).trans ?_
  refine (congrFun (W6_arr m ρ c 3) (ix2 _ e)).trans ?_
  refine (Cert.KernelIdeal.RegProj.final2 (V5 m ρ) c _ e).trans ?_
  unfold Cert.Attn.lin Cert.Attn.outK Cert.Attn.outOf
  refine congrArg₂ (· + ·) (Finset.sum_congr rfl fun a _ => congrArg₂ (· * ·) ?_ ?_) ?_
  · exact v17_entry m ρ c bt n a _ hr
  · exact congrFun (W5_arg3 m ρ c) (ix2 e a)
  · refine (v18_at (W4 m ρ c) e).trans ?_
    exact congrFun (W4_arg4 m ρ c) (ix1 e)

end Run

end Cert.KernelIdeal.Glue

end
-- ==== Proof.RefValue.lean ====
import proofs.«157207_j54984171323822_2_alg».proof.Proof.Gen.ReferenceIdeal.Read
import proofs.«157207_j54984171323822_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-! ## The argument arrays as coordinate functions -/

/-- The input x[bt, n, k]. -/
abbrev cx (x0 : S4x2048x1024.Idx → EReal) : Fin 4 → Fin 2048 → Fin 1024 → EReal := fun a b c => x0 (ix3 a b c)
/-- The first layer's weights w[e, k]. -/
abbrev cw (x1 : S3072x1024.Idx → EReal) : Fin 3072 → Fin 1024 → EReal := fun a b => x1 (ix2 a b)
/-- The first layer's bias b[e]. -/
abbrev cb (x2 : S3072.Idx → EReal) : Fin 3072 → EReal := fun a => x2 (ix1 a)

/-! ## Index equations: each layout operation's source index, at an index given by its coordinates -/

theorem lidx_v0_ix (bt : Fin 4) (n : Fin 2048) (e : Fin 3072) (k : Fin 1024) :
    lidx_main_v0 (ix3 bt n e) k = ix3 bt n k :=
  funext fun a => Fin.ext (by match a with | ⟨0, _⟩ => rfl | ⟨1, _⟩ => rfl | ⟨2, _⟩ => rfl)

theorem ridx_v0_ix (bt : Fin 4) (n : Fin 2048) (e : Fin 3072) (k : Fin 1024) :
    ridx_main_v0 (ix3 bt n e) k = ix2 e k :=
  funext fun a => Fin.ext (by match a with | ⟨0, _⟩ => rfl | ⟨1, _⟩ => rfl)

theorem idx_v1_v2_ix (bt : Fin 4) (n : Fin 2048) (e : Fin 3072) :
    idx_main_v1 (idx_main_v2 (ix3 bt n e)) = ix1 e :=
  funext fun a => Fin.ext (by match a with | ⟨0, _⟩ => rfl)

section Stages

variable (x0 : S4x2048x1024.Idx → EReal) (x1 : S3072x1024.Idx → EReal) (x2 : S3072.Idx → EReal)

/-- The first linear layer: channel e of row (bt, n) is the contraction of the input row with weight row e, plus the bias. -/
theorem v3_ix (bt : Fin 4) (n : Fin 2048) (e : Fin 3072) :
    val_main_v3 (F := Ideal) x0 x1 x2 (ix3 bt n e) = Cert.Attn.qkv (cx x0) (cw x1) (cb x2) bt n e := by
  rw [val_main_v3_apply, val_main_v0_apply, val_main_v2_apply, val_main_v1_apply]
  simp only [Ideal.addf_def, lidx_v0_ix, ridx_v0_ix, idx_v1_v2_ix]
  rfl

/-! ## Query, key and value: a slice of the fused projection, split into heads, heads moved before positions -/

theorem idx_q_ix (bt : Fin 4) (h : Fin 16) (n : Fin 2048) (d : Fin 64)
    (hlt : (0 : Fin 3).val * 1024 + h.val * 64 + d.val < 3072) :
    idx_main_v4 (idx_main_v7 (idx_main_v8 (ix4 bt h n d)))
      = ix3 bt n (⟨(0 : Fin 3).val * 1024 + h.val * 64 + d.val, hlt⟩ : Fin 3072) :=
  funext fun a => Fin.ext (by
    have hb := bt.isLt; have hh := h.isLt; have hn := n.isLt; have hd := d.isLt
    match a with
    | ⟨0, _⟩ => show (((bt.val * 2048 + n.val) * 16 + h.val) * 64 + d.val) / 2097152 = bt.val; omega
    | ⟨1, _⟩ => show (((bt.val * 2048 + n.val) * 16 + h.val) * 64 + d.val) / 1024 % 2048 = n.val; omega
    | ⟨2, _⟩ => show (((bt.val * 2048 + n.val) * 16 + h.val) * 64 + d.val) % 1024 = 0 * 1024 + h.val * 64 + d.val; omega)

theorem idx_k_ix (bt : Fin 4) (h : Fin 16) (n : Fin 2048) (d : Fin 64)
    (hlt : (1 : Fin 3).val * 1024 + h.val * 64 + d.val < 3072) :
    idx_main_v5 (idx_main_v9 (idx_main_v10 (ix4 bt h n d)))
      = ix3 bt n (⟨(1 : Fin 3).val * 1024 + h.val * 64 + d.val, hlt⟩ : Fin 3072) :=
  funext fun a => Fin.ext (by
    have hb := bt.isLt; have hh := h.isLt; have hn := n.isLt; have hd := d.isLt
    match a with
    | ⟨0, _⟩ => show (((bt.val * 2048 + n.val) * 16 + h.val) * 64 + d.val) / 2097152 = bt.val; omega
    | ⟨1, _⟩ => show (((bt.val * 2048 + n.val) * 16 + h.val) * 64 + d.val) / 1024 % 2048 = n.val; omega
    | ⟨2, _⟩ => show 1024 + (((bt.val * 2048 + n.val) * 16 + h.val) * 64 + d.val) % 1024 = 1 * 1024 + h.val * 64 + d.val; omega)

theorem idx_v_ix (bt : Fin 4) (h : Fin 16) (n : Fin 2048) (d : Fin 64)
    (hlt : (2 : Fin 3).val * 1024 + h.val * 64 + d.val < 3072) :
    idx_main_v6 (idx_main_v11 (idx_main_v12 (ix4 bt h n d)))
      = ix3 bt n (⟨(2 : Fin 3).val * 1024 + h.val * 64 + d.val, hlt⟩ : Fin 3072) :=
  funext fun a => Fin.ext (by
    have hb := bt.isLt; have hh := h.isLt; have hn := n.isLt; have hd := d.isLt
    match a with
    | ⟨0, _⟩ => show (((bt.val * 2048 + n.val) * 16 + h.val) * 64 + d.val) / 2097152 = bt.val; omega
    | ⟨1, _⟩ => show (((bt.val * 2048 + n.val) * 16 + h.val) * 64 + d.val) / 1024 % 2048 = n.val; omega
    | ⟨2, _⟩ => show 2048 + (((bt.val * 2048 + n.val) * 16 + h.val) * 64 + d.val) % 1024 = 2 * 1024 + h.val * 64 + d.val; omega)

/-- The query: channel h * 64 + d of the fused projection. -/
theorem v8_ix (bt : Fin 4) (h : Fin 16) (n : Fin 2048) (d : Fin 64) :
    val_main_v8 (F := Ideal) x0 x1 x2 (ix4 bt h n d) = Cert.Attn.part (cx x0) (cw x1) (cb x2) 0 bt h n d := by
  rw [val_main_v8_apply, val_main_v7_apply, val_main_v4_apply,
    idx_q_ix bt h n d (by have := h.isLt; have := d.isLt; show 0 * 1024 + h.val * 64 + d.val < 3072; omega), v3_ix]
  rfl

/-- The key: channel 1024 + h * 64 + d of the fused projection. -/
theorem v10_ix (bt : Fin 4) (h : Fin 16) (n : Fin 2048) (d : Fin 64) :
    val_main_v10 (F := Ideal) x0 x1 x2 (ix4 bt h n d) = Cert.Attn.part (cx x0) (cw x1) (cb x2) 1 bt h n d := by
  rw [val_main_v10_apply, val_main_v9_apply, val_main_v5_apply,
    idx_k_ix bt h n d (by have := h.isLt; have := d.isLt; show 1 * 1024 + h.val * 64 + d.val < 3072; omega), v3_ix]
  rfl

/-- The value: channel 2048 + h * 64 + d of the fused projection. -/
theorem v12_ix (bt : Fin 4) (h : Fin 16) (n : Fin 2048) (d : Fin 64) :
    val_main_v12 (F := Ideal) x0 x1 x2 (ix4 bt h n d) = Cert.Attn.part (cx x0) (cw x1) (cb x2) 2 bt h n d := by
  rw [val_main_v12_apply, val_main_v11_apply, val_main_v6_apply,
    idx_v_ix bt h n d (by have := h.isLt; have := d.isLt; show 2 * 1024 + h.val * 64 + d.val < 3072; omega), v3_ix]
  rfl

/-! ## The scaled scores -/

theorem lidx_v13_ix (bt : Fin 4) (h : Fin 16) (n m : Fin 2048) (k : Fin 64) :
    lidx_main_v13 (ix4 bt h n m) k = ix4 bt h n k :=
  funext fun a => Fin.ext (by match a with | ⟨0, _⟩ => rfl | ⟨1, _⟩ => rfl | ⟨2, _⟩ => rfl | ⟨3, _⟩ => rfl)

theorem ridx_v13_ix (bt : Fin 4) (h : Fin 16) (n m : Fin 2048) (k : Fin 64) :
    ridx_main_v13 (ix4 bt h n m) k = ix4 bt h m k :=
  funext fun a => Fin.ext (by match a with | ⟨0, _⟩ => rfl | ⟨1, _⟩ => rfl | ⟨2, _⟩ => rfl | ⟨3, _⟩ => rfl)

/-- The score of query row n against key row m: the contraction over the head's features, times 1/8. -/
theorem v15_ix (bt : Fin 4) (h : Fin 16) (n m : Fin 2048) :
    val_main_v15 (F := Ideal) x0 x1 x2 (ix4 bt h n m) = Cert.Attn.sc (cx x0) (cw x1) (cb x2) bt h n m := by
  rw [val_main_v15_apply, val_main_v13_apply, val_main_v14_apply, val_main_cst_apply]
  simp only [Ideal.mulf_def, Ideal.ofBits_def, lidx_v13_ix, ridx_v13_ix, v8_ix, v10_ix]
  rfl

/-! ## The row maximum -/

/-- The scores' shape with its last axis dropped. -/
theorem reduces_scores : S4x16x2048x2048.Reduces [3] S4x16x2048 := by decide

/-- The reduced index (bt, h, n) with coordinate k put back on the dropped axis is (bt, h, n, k). -/
theorem lift_ix3 (bt : Fin 4) (h : Fin 16) (n : Fin 2048) (k : Fin (S4x16x2048x2048.size 3)) :
    reduces_scores.lift (ix3 bt h n) k = ix4 bt h n (⟨k.val, k.isLt⟩ : Fin 2048) := by
  funext c; apply Fin.ext
  fin_cases c <;> rfl

/-- A maximum-reduce over the last axis, from a scalar initial value, read at (bt, h, n): the fold of max over that row. -/
theorem reduceMax_ix (y : S4x16x2048x2048.Idx → EReal) (init : S_.Idx → EReal)
    (h' : S4x16x2048x2048.ReducesTo [3] S4x16x2048) (hu : 0 < S_.numel) (bt : Fin 4) (h : Fin 16) (n : Fin 2048) :
    Host.reduce (FloatOps.maximumf (F := Ideal) (φ := .f32)) y init h' hu (ix3 bt h n)
      = (Finset.univ : Finset (Fin 2048)).fold max (init (Shape.Idx.first hu)) (fun m => y (ix4 bt h n m)) := by
  rw [Host.reduce_eq_fold_single (FloatOps.maximumf (F := Ideal) (φ := .f32)) y init h' reduces_scores hu]
  have hf : (y ∘ reduces_scores.lift (ix3 bt h n)) = fun m : Fin 2048 => y (ix4 bt h n m) :=
    funext fun k => congrArg y (lift_ix3 bt h n k)
  exact congrArg (fun f => Finset.fold max (init (Shape.Idx.first hu)) f (Finset.univ : Finset (Fin 2048))) hf

/-- The reduce from −∞ of the scores over the key axis is the row maximum. -/
theorem v16_ix (bt : Fin 4) (h : Fin 16) (n : Fin 2048) :
    val_main_v16 (F := Ideal) x0 x1 x2 (ix3 bt h n)
      = Cert.Attn.rowMax (Cert.Attn.sc (cx x0) (cw x1) (cb x2) bt h n) := by
  unfold val_main_v16
  have hy : (fun m => val_main_v15 (F := Ideal) x0 x1 x2 (ix4 bt h n m)) = Cert.Attn.sc (cx x0) (cw x1) (cb x2) bt h n :=
    funext fun m => v15_ix x0 x1 x2 bt h n m
  generalize val_main_v15 (F := Ideal) x0 x1 x2 = y at hy ⊢
  rw [reduceMax_ix, hy]
  rfl

/-- The maximum with a broadcast −∞ changes nothing: the row maximum again. -/
theorem v18_ix (bt : Fin 4) (h : Fin 16) (n : Fin 2048) :
    val_main_v18 (F := Ideal) x0 x1 x2 (ix3 bt h n)
      = Cert.Attn.rowMax (Cert.Attn.sc (cx x0) (cw x1) (cb x2) bt h n) := by
  rw [val_main_v18_apply, val_main_v17_apply, val_main_cst_1_apply, v16_ix]
  simp only [Ideal.maximumf_def, Ideal.ofBits_def]
  have hbot : Ideal.ofBits .f32 0xFF800000#32 = (⊥ : EReal) := by simp [Ideal.ofBits, Ideal.ieee]
  rw [hbot]
  exact max_eq_right bot_le

/-! ## The weights, their sum, and the normalised weights -/

theorem idx_v19_v20_ix (bt : Fin 4) (h : Fin 16) (n m : Fin 2048) :
    idx_main_v19 (idx_main_v20 (ix4 bt h n m)) = ix3 bt h n :=
  funext fun a => Fin.ext (by match a with | ⟨0, _⟩ => rfl | ⟨1, _⟩ => rfl | ⟨2, _⟩ => rfl)

/-- The weight of key row m: the exponential of its score less the row maximum. -/
theorem v22_ix (bt : Fin 4) (h : Fin 16) (n m : Fin 2048) :
    val_main_v22 (F := Ideal) x0 x1 x2 (ix4 bt h n m)
      = Cert.Attn.wgt (Cert.Attn.sc (cx x0) (cw x1) (cb x2) bt h n) m := by
  rw [val_main_v22_apply, val_main_v21_apply, val_main_v20_apply, val_main_v19_apply, idx_v19_v20_ix, v18_ix, v15_ix]
  simp only [Ideal.hostUnary_exp_def, Ideal.subf_def]
  rfl

theorem idx_v23_ix (bt : Fin 4) (h : Fin 16) (n k : Fin 2048) :
    idx_main_v23 (ix3 bt h n) k = ix4 bt h n k :=
  funext fun a => Fin.ext (by match a with | ⟨0, _⟩ => rfl | ⟨1, _⟩ => rfl | ⟨2, _⟩ => rfl | ⟨3, _⟩ => rfl)

/-- The sum of a row's weights, started from zero. -/
theorem v23_ix (bt : Fin 4) (h : Fin 16) (n : Fin 2048) :
    val_main_v23 (F := Ideal) x0 x1 x2 (ix3 bt h n)
      = Cert.Attn.den (Cert.Attn.sc (cx x0) (cw x1) (cb x2) bt h n) := by
  rw [val_main_v23_apply, val_main_cst_2_apply]
  simp only [Ideal.ofBits_def, Ideal.ofBits_zero_f32, zero_add, idx_v23_ix, v22_ix]
  rfl

theorem idx_v24_v25_ix (bt : Fin 4) (h : Fin 16) (n m : Fin 2048) :
    idx_main_v24 (idx_main_v25 (ix4 bt h n m)) = ix3 bt h n :=
  funext fun a => Fin.ext (by match a with | ⟨0, _⟩ => rfl | ⟨1, _⟩ => rfl | ⟨2, _⟩ => rfl)

/-- The normalised weight of key row m: its weight divided by the row's sum. -/
theorem v26_ix (bt : Fin 4) (h : Fin 16) (n m : Fin 2048) :
    val_main_v26 (F := Ideal) x0 x1 x2 (ix4 bt h n m)
      = Ideal.div (Cert.Attn.wgt (Cert.Attn.sc (cx x0) (cw x1) (cb x2) bt h n) m)
          (Cert.Attn.den (Cert.Attn.sc (cx x0) (cw x1) (cb x2) bt h n)) := by
  rw [val_main_v26_apply, val_main_v25_apply, val_main_v24_apply, idx_v24_v25_ix, v23_ix, v22_ix]
  simp only [Ideal.hostDivf_def]

/-! ## The context vectors -/

theorem lidx_v27_ix (bt : Fin 4) (h : Fin 16) (n : Fin 2048) (d : Fin 64) (k : Fin 2048) :
    lidx_main_v27 (ix4 bt h n d) k = ix4 bt h n k :=
  funext fun a => Fin.ext (by match a with | ⟨0, _⟩ => rfl | ⟨1, _⟩ => rfl | ⟨2, _⟩ => rfl | ⟨3, _⟩ => rfl)

theorem ridx_v27_ix (bt : Fin 4) (h : Fin 16) (n : Fin 2048) (d : Fin 64) (k : Fin 2048) :
    ridx_main_v27 (ix4 bt h n d) k = ix4 bt h k d :=
  funext fun a => Fin.ext (by match a with | ⟨0, _⟩ => rfl | ⟨1, _⟩ => rfl | ⟨2, _⟩ => rfl | ⟨3, _⟩ => rfl)

/-- Feature d of the context vector of query row n: the normalised weights' combination of the value rows. -/
theorem v27_ix (bt : Fin 4) (h : Fin 16) (n : Fin 2048) (d : Fin 64) :
    val_main_v27 (F := Ideal) x0 x1 x2 (ix4 bt h n d) = Cert.Attn.ctxR (cx x0) (cw x1) (cb x2) bt h n d := by
  rw [val_main_v27_apply]
  simp only [lidx_v27_ix, ridx_v27_ix, v26_ix, v12_ix]
  rfl

theorem idx_v28_v29_ix (bt : Fin 4) (n : Fin 2048) (a : Fin 1024) (h1 : a.val / 64 < 16) (h2 : a.val % 64 < 64) :
    idx_main_v28 (idx_main_v29 (ix3 bt n a)) = ix4 bt (⟨a.val / 64, h1⟩ : Fin 16) n (⟨a.val % 64, h2⟩ : Fin 64) :=
  funext fun c => Fin.ext (by
    have hb := bt.isLt; have hn := n.isLt; have ha := a.isLt
    match c with
    | ⟨0, _⟩ => show ((bt.val * 2048 + n.val) * 1024 + a.val) / 2097152 = bt.val; omega
    | ⟨1, _⟩ => show ((bt.val * 2048 + n.val) * 1024 + a.val) / 64 % 16 = a.val / 64; omega
    | ⟨2, _⟩ => show ((bt.val * 2048 + n.val) * 1024 + a.val) / 1024 % 2048 = n.val; omega
    | ⟨3, _⟩ => show ((bt.val * 2048 + n.val) * 1024 + a.val) % 64 = a.val % 64; omega)

/-- The heads' context vectors side by side: channel a is feature a % 64 of head a / 64. -/
theorem v29_ix (bt : Fin 4) (n : Fin 2048) (a : Fin 1024) (h1 : a.val / 64 < 16) (h2 : a.val % 64 < 64) :
    val_main_v29 (F := Ideal) x0 x1 x2 (ix3 bt n a)
      = Cert.Attn.ctxR (cx x0) (cw x1) (cb x2) bt (⟨a.val / 64, h1⟩ : Fin 16) n (⟨a.val % 64, h2⟩ : Fin 64) := by
  rw [val_main_v29_apply, val_main_v28_apply, idx_v28_v29_ix bt n a h1 h2, v27_ix]

/-! ## The output projection -/

theorem lidx_v30_ix (bt : Fin 4) (n : Fin 2048) (e k : Fin 1024) :
    lidx_main_v30 (ix3 bt n e) k = ix3 bt n k :=
  funext fun a => Fin.ext (by match a with | ⟨0, _⟩ => rfl | ⟨1, _⟩ => rfl | ⟨2, _⟩ => rfl)

theorem ridx_v30_ix (bt : Fin 4) (n : Fin 2048) (e k : Fin 1024) :
    ridx_main_v30 (ix3 bt n e) k = ix2 e k :=
  funext fun a => Fin.ext (by match a with | ⟨0, _⟩ => rfl | ⟨1, _⟩ => rfl)

theorem idx_v31_v32_ix (bt : Fin 4) (n : Fin 2048) (e : Fin 1024) :
    idx_main_v31 (idx_main_v32 (ix3 bt n e)) = ix1 e :=
  funext fun a => Fin.ext (by match a with | ⟨0, _⟩ => rfl)

end Stages

/-- The reference's result at (bt, n, e) is the specification's layer, every weight normalised first. -/
theorem ref_apply (x0 : S4x2048x1024.Idx → EReal) (x1 : S3072x1024.Idx → EReal) (x2 : S3072.Idx → EReal)
    (x3 : S1024x1024.Idx → EReal) (x4 : S1024.Idx → EReal) (bt : Fin 4) (n : Fin 2048) (e : Fin 1024) :
    (val_main_v33 (F := Ideal) x0 x1 x2 x3 x4 : S4x2048x1024.Idx → EReal) (ix3 bt n e)
      = Cert.Attn.outR (fun a b c => x0 (ix3 a b c)) (fun a b => x1 (ix2 a b)) (fun a => x2 (ix1 a))
          (fun a b => x3 (ix2 a b)) (fun a => x4 (ix1 a)) bt n e := by
  rw [val_main_v33_apply, val_main_v30_apply, val_main_v32_apply, val_main_v31_apply, idx_v31_v32_ix]
  simp only [Ideal.addf_def, lidx_v30_ix, ridx_v30_ix]
  unfold Cert.Attn.outR Cert.Attn.outOf
  refine congrArg (· + x4 (ix1 e)) (Finset.sum_congr rfl fun a _ => ?_)
  rw [v29_ix x0 x1 x2 bt n a (by have := a.isLt; omega) (Nat.mod_lt _ (by decide))]

end Cert.ReferenceIdeal.RefValue

end
-- ==== Proof.SpecLaw.lean ====
/-
  The one law of the certificate: on rows of REAL scores and REAL values the two ways of normalising a softmax-weighted
  combination agree,
      (Σ_m p_m · v_m) · (1 / Σ_m p_m)  =  Σ_m (p_m / Σ_m p_m) · v_m,      p_m = exp (s_m − max_m s_m).
  On the extended reals this is distributivity of a product over a sum, which fails at infinities; it holds here because
  every term is a real number: the maximum of finitely many reals (taken from −∞ over a non-empty row) is a real, so each
  weight is the exponential of a real, positive, and the weights' sum is a positive real. The scores and values are real
  because the inputs are: a sum of products of reals plus a real is a real.
-/
import proofs.«157207_j54984171323822_2_alg».proof.Proof.Spec

noncomputable section

namespace Cert.Attn

open Idealize.ShloMosaic

/-! ## The three literals -/

theorem cOne_eq : cOne = 1 := by
  simp [Ideal.ofBits, Ideal.ieee, -EReal.coe_mul]; norm_num

theorem cNegInf_eq : cNegInf = ⊥ := by
  simp [Ideal.ofBits, Ideal.ieee]

theorem cScale_real : ∃ r : ℝ, cScale = (r : EReal) :=
  ⟨(1 / 8 : ℝ), by simp [Ideal.ofBits, Ideal.ieee, -EReal.coe_mul]; norm_num⟩

/-! ## Sums and maxima of reals inside the extended reals -/

theorem coe_sum {ι : Type*} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

theorem fold_max_real {ι : Type*} [DecidableEq ι] (t : Finset ι) (f : ι → ℝ) (ht : t.Nonempty) :
    ∃ r : ℝ, t.fold max (⊥ : EReal) (fun i => (f i : EReal)) = (r : EReal) := by
  induction t using Finset.induction_on with
  | empty => exact absurd ht Finset.not_nonempty_empty
  | insert a t ha ih =>
    rw [Finset.fold_insert ha]
    rcases t.eq_empty_or_nonempty with h | h
    · subst h; exact ⟨f a, by simp⟩
    · obtain ⟨r, hr⟩ := ih h
      exact ⟨max (f a) r, by rw [hr]; exact (EReal.coe_strictMono.monotone.map_max).symm⟩

/-! ## The law -/

theorem headK_eq_headR {M : ℕ} (hM : 0 < M) (s v : Fin M → EReal)
    (hs : ∀ m, ∃ r : ℝ, s m = (r : EReal)) (hv : ∀ m, ∃ r : ℝ, v m = (r : EReal)) : headK s v = headR s v := by
  choose sr hsr using hs
  choose vr hvr using hv
  obtain rfl : s = fun m => (sr m : EReal) := funext hsr
  obtain rfl : v = fun m => (vr m : EReal) := funext hvr
  haveI : Nonempty (Fin M) := ⟨⟨0, hM⟩⟩
  obtain ⟨mx, hmx⟩ : ∃ r : ℝ, rowMax (fun m => (sr m : EReal)) = (r : EReal) := by
    unfold rowMax; rw [cNegInf_eq]; exact fold_max_real _ _ Finset.univ_nonempty
  have hw : ∀ m, wgt (fun m => (sr m : EReal)) m = ((Real.exp (sr m - mx) : ℝ) : EReal) := fun m => by
    unfold wgt; rw [hmx, ← EReal.coe_sub, Ideal.exp_coe]
  have hden : den (fun m => (sr m : EReal)) = ((∑ m, Real.exp (sr m - mx) : ℝ) : EReal) := by
    unfold den; rw [← coe_sum]; exact Finset.sum_congr rfl fun m _ => hw m
  have hL : (∑ m : Fin M, Real.exp (sr m - mx)) ≠ 0 :=
    ne_of_gt (Finset.sum_pos (fun m _ => Real.exp_pos _) Finset.univ_nonempty)
  unfold headK headR
  rw [hden, Ideal.div_coe hL, cOne_eq, one_mul]
  simp only [hw, Ideal.div_coe hL, ← EReal.coe_mul]
  rw [coe_sum, coe_sum, ← EReal.coe_mul]
  refine congrArg _ ?_
  rw [Finset.sum_mul]
  exact Finset.sum_congr rfl fun m _ => by ring

/-! ## Real inputs give real scores and values -/

section Model
variable (x : Fin 4 → Fin 2048 → Fin 1024 → EReal) (w : Fin 3072 → Fin 1024 → EReal) (b : Fin 3072 → EReal)
  (wo : Fin 1024 → Fin 1024 → EReal) (bo : Fin 1024 → EReal)

theorem qkv_real (hx : ∀ bt n k, ∃ r : ℝ, x bt n k = (r : EReal)) (hw : ∀ e k, ∃ r : ℝ, w e k = (r : EReal))
    (hb : ∀ e, ∃ r : ℝ, b e = (r : EReal)) (bt : Fin 4) (n : Fin 2048) (e : Fin 3072) : ∃ r : ℝ, qkv x w b bt n e = (r : EReal) := by
  choose xr hxr using hx
  choose wr hwr using hw
  choose br hbr using hb
  refine ⟨(∑ k, xr bt n k * wr e k) + br e, ?_⟩
  unfold qkv
  simp only [hxr, hwr, hbr, ← EReal.coe_mul]
  rw [coe_sum, ← EReal.coe_add]

theorem score_real {M D : ℕ} (q : Fin D → EReal) (k : Fin M → Fin D → EReal) (hq : ∀ d, ∃ r : ℝ, q d = (r : EReal))
    (hk : ∀ m d, ∃ r : ℝ, k m d = (r : EReal)) (m : Fin M) : ∃ r : ℝ, score q k m = (r : EReal) := by
  choose qr hqr using hq
  choose kr hkr using hk
  obtain ⟨c, hc⟩ := cScale_real
  refine ⟨(∑ d, qr d * kr m d) * c, ?_⟩
  unfold score
  rw [hc]
  simp only [hqr, hkr, ← EReal.coe_mul]
  rw [coe_sum, ← EReal.coe_mul]

/-- With every entry of `x`, `w` and `b` a real number the two forms of the layer are one function. -/
theorem outK_eq_outR (hx : ∀ bt n k, ∃ r : ℝ, x bt n k = (r : EReal)) (hw : ∀ e k, ∃ r : ℝ, w e k = (r : EReal))
    (hb : ∀ e, ∃ r : ℝ, b e = (r : EReal)) : outK x w b wo bo = outR x w b wo bo := by
  have hp : ∀ s bt h n d, ∃ r : ℝ, part x w b s bt h n d = (r : EReal) := fun s bt h n d => by
    unfold part; exact qkv_real x w b hx hw hb _ _ _
  have h : ∀ bt h n d, ctxK x w b bt h n d = ctxR x w b bt h n d := fun bt h n d => by
    unfold ctxK ctxR
    refine headK_eq_headR (by decide) _ _ (fun m => ?_) (fun m => hp _ _ _ _ _)
    unfold sc
    exact score_real _ _ (fun d => hp _ _ _ _ _) (fun m d => hp _ _ _ _ _) m
  funext bt n e
  unfold outK outR outOf
  simp only [h]

end Model

end Cert.Attn

end
-- ==== Proof.Finite.lean ====
/-
  From the precondition to real numbers. The precondition is the conjunction, over the five argument arrays, of
  "every entry's absolute value is below +∞". On the extended reals `max x (−x) < +∞` excludes exactly the two
  infinities, so every entry of every argument is (the image of) a real number.
-/
import proofs.«157207_j54984171323822_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Facts

instance : Subsingleton S_.Idx := ⟨fun a b => funext fun d => d.elim0⟩

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  have hlt : max x (-x) < ⊤ := by
    by_contra hn
    simp [Ideal.cmp, hn] at h
  induction x using EReal.rec with
  | bot => simp at hlt
  | top => simp at hlt
  | coe r => exact ⟨r, rfl⟩

/-- One array: if the conjunction over all its entries of "absolute value below +∞" is true, every entry is real. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = (r : EReal) :=
  real_of_abs_lt (a i) (Host.reduce_andi_all _ _ hr hu ValueIdx.ix0 h i)

variable [Facts]

/-- The precondition of the certificate makes every entry of every argument array a real number. -/
theorem of_pre (a0 : FVec Ideal S4x2048x1024 .f32) (a1 : FVec Ideal S3072x1024 .f32) (a2 : FVec Ideal S3072 .f32)
    (a3 : FVec Ideal S1024x1024 .f32) (a4 : FVec Ideal S1024 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_real a0 _ _ _ h0', all_real a1 _ _ _ h1, all_real a2 _ _ _ h2, all_real a3 _ _ _ h3, all_real a4 _ _ _ h4⟩

end Cert.Finite

end
-- ==== Proof.lean ====
/-
  Multi-head self-attention between two linear layers, as three kernel regions against a jnp reference, on the extended
  reals. Both programs compute, from `x[4, 2048, 1024]`, `w[3072, 1024]`, `b[3072]`, `wo[1024, 1024]`, `bo[1024]`,
      qkv = x · wᵀ + b,    per head  s = q · kᵀ / 8,  p = exp (s − rowmax s),    out = ctx · woᵀ + bo,
  and differ in one place only: the kernel forms `ctx = (p · v) · (1 / Σ p)`, the reference `ctx = (p / Σ p) · v`.
  * The kernel side: its run names the result as the last boundary's contents; read back through the three regions
    (each region's output array is the pipeline's blocks put together) and the host reshapes, transposes and slices
    between them, the result at `(bt, n, e)` is the specification's `outK` of the argument arrays.
  * The reference side: its run's term, read one operation at a time, is the specification's `outR` at `(bt, n, e)`.
  * The two agree because, under the precondition, every entry of every argument is a real number, so every score and
    value is real, every row's weights are positive reals, and multiplying a finite sum by the reciprocal of the weights'
    sum distributes over it.
  The bf16 conversions on the way into the matrix products are the identity on the extended reals; the ideal pass rewrote
  nothing, so the idealized kernel is the kernel's own text.
-/
import proofs.«157207_j54984171323822_2_alg».proof.Defs
import proofs.«157207_j54984171323822_2_alg».proof.Proof.Gen.Kernel
import proofs.«157207_j54984171323822_2_alg».proof.Proof.Gen.Kernel.Skeleton
import proofs.«157207_j54984171323822_2_alg».proof.Proof.Gen.Kernel.Launch
import proofs.«157207_j54984171323822_2_alg».proof.Proof.Gen.Kernel.Points
import proofs.«157207_j54984171323822_2_alg».proof.Proof.Gen.Kernel.Frame
import proofs.«157207_j54984171323822_2_alg».proof.Proof.Gen.KernelIdeal
import proofs.«157207_j54984171323822_2_alg».proof.Proof.Gen.KernelIdeal.Skeleton
import proofs.«157207_j54984171323822_2_alg».proof.Proof.Gen.KernelIdeal.Launch
import proofs.«157207_j54984171323822_2_alg».proof.Proof.Gen.KernelIdeal.Points
import proofs.«157207_j54984171323822_2_alg».proof.Proof.Gen.KernelIdeal.Frame
import proofs.«157207_j54984171323822_2_alg».proof.Proof.Gen.ReferenceIdeal
import proofs.«157207_j54984171323822_2_alg».proof.Proof.Gen.ReferenceIdeal.Run
import proofs.«157207_j54984171323822_2_alg».proof.Proof.Gen.ReferenceIdeal.Read
import proofs.«157207_j54984171323822_2_alg».proof.Proof.Gen.Pre_finite_inputs
import proofs.«157207_j54984171323822_2_alg».proof.Proof.KRun
import proofs.«157207_j54984171323822_2_alg».proof.Proof.Glue
import proofs.«157207_j54984171323822_2_alg».proof.Proof.RefValue
import proofs.«157207_j54984171323822_2_alg».proof.Proof.SpecLaw
import proofs.«157207_j54984171323822_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result: the kernel's is `outK` of the
    arguments, the reference's `outR`, and the two are one function where every argument entry is a real number. -/
theorem algebraic : Cert.algebraic_KernelIdeal_ReferenceIdeal := by
  intro m ρ m' ρ' hpre hagree
  refine ⟨fun c => Cert.KernelIdeal.Gen.W7 m ρ c (Proc.devRef .tc Cert.KernelIdeal.main_v20), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1, (hagree c).2.2.2.2]
  obtain ⟨h0, h1, h2, -, -⟩ := Cert.Finite.of_pre _ _ _ _ _ (hpre c)
  funext i
  obtain ⟨bt, n, e, rfl⟩ : ∃ (bt : Fin 4) (n : Fin 2048) (e : Fin 1024), i = ix3 bt n e := ⟨i 0, i 1, i 2, eq_ix3 i⟩
  refine (Cert.ReferenceIdeal.RefValue.ref_apply _ _ _ _ _ bt n e).trans ?_
  refine Eq.trans ?_ (Cert.KernelIdeal.Glue.result_at m ρ c bt n e).symm
  exact (congrFun (congrFun (congrFun (Cert.Attn.outK_eq_outR (Cert.KernelIdeal.Glue.xA m c) (Cert.KernelIdeal.Glue.wA m c)
    (Cert.KernelIdeal.Glue.bA m c) (Cert.KernelIdeal.Glue.woA m c) (Cert.KernelIdeal.Glue.boA m c)
    (fun a b k => h0 (ix3 a b k)) (fun a k => h1 (ix2 a k)) (fun a => h2 (ix1 a))) bt) n) e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
